-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S64 .f32) (main_arg16 : FVec F S128x1 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x1 .f32 := Host.absf main_arg16
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S128x64 .f32) (main_arg12 : FVec F S64 .f32) (main_arg13 : FVec F S64x64 .f32) (main_arg14 : FVec F S64x64 .f32) (main_arg15 : FVec F S64 .f32) (main_arg16 : FVec F S128x1 .f32) (main_arg17 : FVec F S1 .f32) (main_v33 : IVec S_ 1) : IVec S_ 1 :=
  let main_v34 : FVec F S128x64 .f32 := Host.absf main_arg11
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_v48 main_v49 main_v50

def fn_part1 {F : FTy → Type} [FloatOps F] (main_arg8 : FVec F S64x64 .f32) (main_arg9 : FVec F S64x64 .f32) (main_arg10 : FVec F S64 .f32) (main_arg11 : FVec F S128x64 .f32) (main_arg12 : FVec F S64 .f32) (main_arg13 : FVec F S64x64 .f32) (main_arg14 : FVec F S64x64 .f32) (main_arg15 : FVec F S64 .f32) (main_arg16 : FVec F S128x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x128 .f32) (main_arg1 : FVec F S100000x128 .f32) (main_arg2 : IVec S2x1600000 32) (main_arg3 : IVec S2x1600000 32) (main_arg4 : IVec S100000 32) (main_arg5 : IVec S100000 32) (main_arg6 : FVec F S128x64 .f32) (main_arg7 : FVec F S64 .f32) (main_arg8 : FVec F S64x64 .f32) (main_arg9 : FVec F S64x64 .f32) (main_arg10 : FVec F S64 .f32) (main_arg11 : FVec F S128x64 .f32) (main_arg12 : FVec F S64 .f32) (main_arg13 : FVec F S64x64 .f32) (main_arg14 : FVec F S64x64 .f32) (main_arg15 : FVec F S64 .f32) (main_arg16 : FVec F S128x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S128x128 : Shape := ⟨2, ![128, 128]⟩
abbrev S1x1 : Shape := ⟨2, ![1, 1]⟩
abbrev S128 : Shape := ⟨1, ![128]⟩

abbrev nBuf : Space → Nat
  | .hbm => 154
  | .vmem => 30
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S100000, .i32⟩
  | 5 => ⟨S100000, .i32⟩
  | 6 => ⟨S128x64, .f32⟩
  | 7 => ⟨S64, .f32⟩
  | 8 => ⟨S64x64, .f32⟩
  | 9 => ⟨S64x64, .f32⟩
  | 10 => ⟨S64, .f32⟩
  | 11 => ⟨S128x64, .f32⟩
  | 12 => ⟨S64, .f32⟩
  | 13 => ⟨S64x64, .f32⟩
  | 14 => ⟨S64x64, .f32⟩
  | 15 => ⟨S64, .f32⟩
  | 16 => ⟨S128x1, .f32⟩
  | 17 => ⟨S1, .f32⟩
  | 18 => ⟨S1x64, .f32⟩
  | 19 => ⟨S100000x64, .f32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S1x64, .f32⟩
  | 78 => ⟨S100000x64, .f32⟩
  | 79 => ⟨S_, .f32⟩
  | 80 => ⟨S128x64, .f32⟩
  | 81 => ⟨S100000x1, .i32⟩
  | 82 => ⟨S128x64, .f32⟩
  | 83 => ⟨S1x64, .f32⟩
  | 84 => ⟨S100000x64, .f32⟩
  | 85 => ⟨S1x1600000, .i32⟩
  | 86 => ⟨S1600000, .i32⟩
  | 87 => ⟨S1x1600000, .i32⟩
  | 88 => ⟨S1600000, .i32⟩
  | 89 => ⟨S_, .f32⟩
  | 90 => ⟨S1600000, .f32⟩
  | 91 => ⟨S_, .f32⟩
  | 92 => ⟨S100000, .f32⟩
  | 93 => ⟨S1600000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S1600000, .f32⟩
  | 126 => ⟨S1600000x1, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S1x64, .f32⟩
  | 15 => ⟨S100000x64, .f32⟩
  | 16 => ⟨S_, .f32⟩
  | 17 => ⟨S128x64, .f32⟩
  | 18 => ⟨S100000x1, .i32⟩
  | 19 => ⟨S128x64, .f32⟩
  | 20 => ⟨S128x128, .f32⟩
  | 21 => ⟨S128x1, .f32⟩
  | 22 => ⟨S1x1, .f32⟩
  | 23 => ⟨S128x1, .f32⟩
  | 24 => ⟨S128x1, .f32⟩
  | 25 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_c_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_c_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_v65 : Ref sig .tc := ⟨.hbm, 105, rfl⟩
abbrev main_c_16 : Ref sig .tc := ⟨.hbm, 106, rfl⟩
abbrev main_v66 : Ref sig .tc := ⟨.hbm, 107, rfl⟩
abbrev main_v67 : Ref sig .tc := ⟨.hbm, 108, rfl⟩
abbrev main_c_17 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_18 : Ref sig .tc := ⟨.hbm, 116, rfl⟩
abbrev main_v74 : Ref sig .tc := ⟨.hbm, 117, rfl⟩
abbrev main_v75 : Ref sig .tc := ⟨.hbm, 118, rfl⟩
abbrev main_c_19 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_20 : Ref sig .tc := ⟨.hbm, 127, rfl⟩
abbrev main_v83 : Ref sig .tc := ⟨.hbm, 128, rfl⟩
abbrev main_v84 : Ref sig .tc := ⟨.hbm, 129, rfl⟩
abbrev main_c_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  concatenates_S128x64_S128x64_S128x128_d1 : Shape.Concatenates [S128x64, S128x64] S128x128 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x1 : Shape := ⟨2, ![100000, 1]⟩
abbrev S128x128 : Shape := ⟨2, ![128, 128]⟩
abbrev S1x1 : Shape := ⟨2, ![1, 1]⟩
abbrev S128 : Shape := ⟨1, ![128]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S100000, .i32⟩
  | 5 => ⟨S100000, .i32⟩
  | 6 => ⟨S128x64, .f32⟩
  | 7 => ⟨S64, .f32⟩
  | 8 => ⟨S64x64, .f32⟩
  | 9 => ⟨S64x64, .f32⟩
  | 10 => ⟨S64, .f32⟩
  | 11 => ⟨S128x64, .f32⟩
  | 12 => ⟨S64, .f32⟩
  | 13 => ⟨S64x64, .f32⟩
  | 14 => ⟨S64x64, .f32⟩
  | 15 => ⟨S64, .f32⟩
  | 16 => ⟨S128x1, .f32⟩
  | 17 => ⟨S1, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000, .f32⟩
  | 65 => ⟨S1600000, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .f32⟩
  | 92 => ⟨S128x64, .f32⟩
  | 93 => ⟨S100000x1, .i32⟩
  | 94 => ⟨S128x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x1600000, .i32⟩
  | 103 => ⟨S1600000, .i32⟩
  | 104 => ⟨S1x1600000, .i32⟩
  | 105 => ⟨S1600000, .i32⟩
  | 106 => ⟨S_, .f32⟩
  | 107 => ⟨S1600000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .i1⟩
  | 115 => ⟨S_, .f32⟩
  | 116 => ⟨S100000, .f32⟩
  | 117 => ⟨S100000, .f32⟩
  | 118 => ⟨S100000, .f32⟩
  | 119 => ⟨S_, .f32⟩
  | 120 => ⟨S_, .f32⟩
  | 121 => ⟨S100000, .f32⟩
  | 122 => ⟨S100000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S128x64, .f32⟩
  | 42 => ⟨S100000x1, .i32⟩
  | 43 => ⟨S128x64, .f32⟩
  | 44 => ⟨S128x128, .f32⟩
  | 45 => ⟨S128x1, .f32⟩
  | 46 => ⟨S1x1, .f32⟩
  | 47 => ⟨S128x1, .f32⟩
  | 48 => ⟨S128x1, .f32⟩
  | 49 => ⟨S128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call2_cst : Ref sig .tc := ⟨.hbm, 88, rfl⟩
abbrev main_call2_v0 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call3_cst : Ref sig .tc := ⟨.hbm, 99, rfl⟩
abbrev main_call3_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_11 : Ref sig .tc := ⟨.hbm, 106, rfl⟩
abbrev main_v67 : Ref sig .tc := ⟨.hbm, 107, rfl⟩
abbrev main_cst_12 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_13 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_15 : Ref sig .tc := ⟨.hbm, 119, rfl⟩
abbrev main_call4_v0 : Ref sig .tc := ⟨.hbm, 120, rfl⟩
abbrev main_call4_v1 : Ref sig .tc := ⟨.hbm, 121, rfl⟩
abbrev main_v76 : Ref sig .tc := ⟨.hbm, 122, rfl⟩
abbrev main_c_16 : Ref sig .tc := ⟨.hbm, 123, rfl⟩
abbrev main_v77 : Ref sig .tc := ⟨.hbm, 124, rfl⟩
abbrev main_v78 : Ref sig .tc := ⟨.hbm, 125, rfl⟩
abbrev main_c_17 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_c_18 : Ref sig .tc := ⟨.hbm, 133, rfl⟩
abbrev main_v85 : Ref sig .tc := ⟨.hbm, 134, rfl⟩
abbrev main_v86 : Ref sig .tc := ⟨.hbm, 135, rfl⟩
abbrev main_c_19 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_20 : Ref sig .tc := ⟨.hbm, 144, rfl⟩
abbrev main_v94 : Ref sig .tc := ⟨.hbm, 145, rfl⟩
abbrev main_v95 : Ref sig .tc := ⟨.hbm, 146, rfl⟩
abbrev main_c_21 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_22 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call5_cst : Ref sig .tc := ⟨.hbm, 165, rfl⟩
abbrev main_call5_v0 : Ref sig .tc := ⟨.hbm, 166, rfl⟩
abbrev main_v112 : Ref sig .tc := ⟨.hbm, 167, rfl⟩
abbrev main_cst_23 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S128x64 : S_.BroadcastsInDim S128x64 (![] : Fin 0 → Fin S128x64.rank)
  bcast_S100000_S100000x1_0 : S100000.BroadcastsInDim S100000x1 (![0] : Fin 1 → Fin S100000x1.rank)
  concatenates_S128x64_S128x64_S128x128_d1 : Shape.Concatenates [S128x64, S128x64] S128x128 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x128_S128x1_S128x1_1_0_0_1_n_n_wf : DotDims.WF S128x128 S128x1 S128x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.Spec.lean ====
/-
  The network both programs compute, as one function of the eighteen argument arrays, written with the host
  operations of the reference program.

  Two graph encoders of the same form feed one linear read-out. An encoder takes node features `x` (100000 × 128), an edge
  list `e` (2 × 1600000: sources in row 0, targets in row 1) and a graph id per node `bt`:
    * `lin`:  h = max(x · W + b, 0), a dense layer with the bias row repeated along the nodes;
    * `mix`:  the normalised-adjacency product  t[v] = Σ over edges (u → v) of  −d(u)^(−1/2) · d(v)^(−1/2) · h[u],
               where d counts a node's outgoing edges and d^(−1/2) is taken as 0 on nodes without one
               (out-of-range ids are dropped by the accumulating scatter and clamped by the gather);
    * `comb`: o = max((h · W0 + t · W1) + b, 0);
    * `pool`: g[k] = Σ over nodes of graph k of o, a 128 × 64 array.
  `tail` concatenates the two pooled arrays along the feature axis, multiplies by the 128 × 1 read-out weights, adds the
  bias and drops the unit axis. `net` is their composition, and the reference's result term is `net` of the arguments
  by unfolding (`res_eq_net`).
-/
import proofs.«132506_j10075993276849_1_alg».proof.Proof.ReferenceRun

noncomputable section

namespace Cert.GraphNet

open Cert.ReferenceIdeal Cert.ReferenceIdeal.Gen Idealize.ShloMosaic Idealize.ShloMosaic.TcCoe Idealize.SL.Sem Idealize.ShloMosaic.StableHlo

variable {F : FTy → Type} [FloatOps F]

/-- A bias vector as the one row of a 1 × 64 array. -/
def row (b : (⟨S64, .f32⟩ : BufTy).Contents (Elt F)) : (⟨S1x64, .f32⟩ : BufTy).Contents (Elt F) :=
  broadcastInDim S1x64 ![1] bcast_S64_S1x64_1 b

/-- The dense layer `max(x · W + b, 0)`, the bias row repeated along the nodes. -/
def lin (x : (⟨S100000x128, .f32⟩ : BufTy).Contents (Elt F)) (W : (⟨S128x64, .f32⟩ : BufTy).Contents (Elt F)) (b2 : (⟨S1x64, .f32⟩ : BufTy).Contents (Elt F)) :
    (⟨S100000x64, .f32⟩ : BufTy).Contents (Elt F) :=
  (maximumf (addf (Host.dotGeneral dot_S100000x128_S128x64_S100000x64_1_0_0_1_n_n none x W) (broadcastInDim S100000x64 ![0, 1] bcast_S1x64_S100000x64_0_1 b2)) (broadcastInDim S100000x64 ![] bcast_S_S100000x64 (constant S_ .f32 0x00000000#32)))

/-- The normalised-adjacency product of the node features `h` along the edge list `e`. -/
def mix (h : (⟨S100000x64, .f32⟩ : BufTy).Contents (Elt F)) (e : (⟨S2x1600000, .i32⟩ : BufTy).Contents (Elt F)) : (⟨S100000x64, .f32⟩ : BufTy).Contents (Elt F) :=
  (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (mulf (broadcastInDim S1600000x64 ![0, 1] bcast_S1600000x1_S1600000x64_0_1 (broadcastInDim S1600000x1 ![0] bcast_S1600000_S1600000x1_0 (mulf (Host.negf (Host.gather gather_S100000_S1600000x1_S1600000_n_0_n_n_0_1_1 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (broadcastInDim S1600000 ![] bcast_S_S1600000 (constant S_ .f32 0x3F800000#32))) (broadcastInDim S100000 ![] bcast_S_S100000 (constant S_ .f32 0x2B8CBCCC#32)))) (broadcastInDim S100000 ![] bcast_S_S100000 (id (constant S_ .f32 0x00000000#32)))) (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (Host.gather gather_S100000_S1600000x1_S1600000_n_0_n_n_0_1_1 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (broadcastInDim S1600000 ![] bcast_S_S1600000 (constant S_ .f32 0x3F800000#32))) (broadcastInDim S100000 ![] bcast_S_S100000 (constant S_ .f32 0x00000000#32))) (Host.rsqrt (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![0, 0] e slices_S2x1600000_S1x1600000_0_0) shapeCasts_S1x1600000_S1600000)) (broadcastInDim S1600000 ![] bcast_S_S1600000 (constant S_ .f32 0x3F800000#32))) (broadcastInDim S100000 ![] bcast_S_S100000 (constant S_ .f32 0x2B8CBCCC#32)))) (broadcastInDim S100000 ![] bcast_S_S100000 (id (constant S_ .f32 0x00000000#32)))) (broadcastInDim S1600000x1 ![0] bcast_S1600000_S1600000x1_0 (select (cmpi .slt (shapeCast _ (extractStridedSlice S1x1600000 ![1, 0] e slices_S2x1600000_S1x1600000_1_0) shapeCasts_S1x1600000_S1600000) (broadcastInDim S1600000 ![] bcast_S_S1600000 (constantI S_ 32 0#32))) (addi (shapeCast _ (extractStridedSlice S1x1600000 ![1, 0] e slices_S2x1600000_S1x1600000_1_0) shapeCasts_S1x1600000_S1600000) (broadcastInDim S1600000 ![] bcast_S_S1600000 (constantI S_ 32 100000#32))) (shapeCast _ (extractStridedSlice S1x1600000 ![1, 0] e slices_S2x1600000_S1x1600000_1_0) shapeCasts_S1x1600000_S1600000))))))) (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))))

/-- The combining layer `max((h · W0 + t · W1) + b, 0)`. -/
def comb (h t : (⟨S100000x64, .f32⟩ : BufTy).Contents (Elt F)) (W0 W1 : (⟨S64x64, .f32⟩ : BufTy).Contents (Elt F)) (b2 : (⟨S1x64, .f32⟩ : BufTy).Contents (Elt F)) :
    (⟨S100000x64, .f32⟩ : BufTy).Contents (Elt F) :=
  (maximumf (addf (addf (Host.dotGeneral dot_S100000x64_S64x64_S100000x64_1_0_0_1_n_n none h W0) (Host.dotGeneral dot_S100000x64_S64x64_S100000x64_1_0_0_1_n_n none t W1)) (broadcastInDim S100000x64 ![0, 1] bcast_S1x64_S100000x64_0_1 b2)) (broadcastInDim S100000x64 ![] bcast_S_S100000x64 (constant S_ .f32 0x00000000#32)))

/-- The per-graph sums of the node rows `o`, node `v` added into row `bt v`. -/
def pool (o : (⟨S100000x64, .f32⟩ : BufTy).Contents (Elt F)) (bt : (⟨S100000, .i32⟩ : BufTy).Contents (Elt F)) : (⟨S128x64, .f32⟩ : BufTy).Contents (Elt F) :=
  (Host.scatterAdd scatter_S128x64_S100000x1_S100000x64_1_0_0_1 (broadcastInDim S128x64 ![] bcast_S_S128x64 (constant S_ .f32 0x00000000#32)) (broadcastInDim S100000x1 ![0] bcast_S100000_S100000x1_0 bt) o)

/-- The read-out: the two pooled arrays side by side, times the weights, plus the bias, as a vector. -/
def tail (g1 g2 : (⟨S128x64, .f32⟩ : BufTy).Contents (Elt F)) (Wfc : (⟨S128x1, .f32⟩ : BufTy).Contents (Elt F)) (bfc : (⟨S1, .f32⟩ : BufTy).Contents (Elt F)) : (⟨S128, .f32⟩ : BufTy).Contents (Elt F) :=
  shapeCast _ (addf (Host.dotGeneral dot_S128x128_S128x1_S128x1_1_0_0_1_n_n none (concatenate S128x128 1 [⟨S128x64, g1⟩, ⟨S128x64, g2⟩] concatenates_S128x64_S128x64_S128x128_d1) Wfc) (broadcastInDim S128x1 ![0, 1] bcast_S1x1_S128x1_0_1 (broadcastInDim S1x1 ![1] bcast_S1_S1x1_1 bfc))) shapeCasts_S128x1_S128

/-- One encoder: the dense layer, the adjacency product of its output, the combining layer, the pooling. -/
def encoder (x : (⟨S100000x128, .f32⟩ : BufTy).Contents (Elt F)) (e : (⟨S2x1600000, .i32⟩ : BufTy).Contents (Elt F)) (bt : (⟨S100000, .i32⟩ : BufTy).Contents (Elt F))
    (Wl : (⟨S128x64, .f32⟩ : BufTy).Contents (Elt F)) (bl : (⟨S64, .f32⟩ : BufTy).Contents (Elt F)) (W0 W1 : (⟨S64x64, .f32⟩ : BufTy).Contents (Elt F)) (bc : (⟨S64, .f32⟩ : BufTy).Contents (Elt F)) :
    (⟨S128x64, .f32⟩ : BufTy).Contents (Elt F) :=
  pool (comb (lin x Wl (row bl)) (mix (lin x Wl (row bl)) e) W0 W1 (row bc)) bt

/-- The reference's result term is the read-out of the two encoders of the arguments. -/
theorem res_eq_net (m : (ℓ : Loc nD τ sig) → Buf (Elt F) ℓ) (c : Dev nD) :
    Cert.ReferenceIdeal.ValueP.res_main_v121 m c
      = tail (encoder (m ((c.tc : Thread nD τ).loc main_arg0)) (m ((c.tc : Thread nD τ).loc main_arg2)) (m ((c.tc : Thread nD τ).loc main_arg4))
                (m ((c.tc : Thread nD τ).loc main_arg6)) (m ((c.tc : Thread nD τ).loc main_arg7)) (m ((c.tc : Thread nD τ).loc main_arg8))
                (m ((c.tc : Thread nD τ).loc main_arg9)) (m ((c.tc : Thread nD τ).loc main_arg10)))
             (encoder (m ((c.tc : Thread nD τ).loc main_arg1)) (m ((c.tc : Thread nD τ).loc main_arg3)) (m ((c.tc : Thread nD τ).loc main_arg5))
                (m ((c.tc : Thread nD τ).loc main_arg11)) (m ((c.tc : Thread nD τ).loc main_arg12)) (m ((c.tc : Thread nD τ).loc main_arg13))
                (m ((c.tc : Thread nD τ).loc main_arg14)) (m ((c.tc : Thread nD τ).loc main_arg15)))
             (m ((c.tc : Thread nD τ).loc main_arg16)) (m ((c.tc : Thread nD τ).loc main_arg17)) := by
  unfold Cert.ReferenceIdeal.ValueP.res_main_v121 tail encoder pool comb mix lin row
  rfl

end Cert.GraphNet

end
-- ==== Proof.KernelRun.lean ====
/-
  The idealized kernel's run with every buffer named.

  The program is four kernel regions among stretches of host operations. Its generated frame folds the buffer
  contents through the thirteen segments (`Gen.W0` … `Gen.W13`) and shows that every execution terminates with each
  unscoped buffer at the last fold; it then keeps only what the frame claim asks, the argument arrays. Here the same
  launch is read without forgetting: every execution ends with EVERY unscoped buffer — the result vector among them —
  at `Gen.W13`. What that fold holds at the result buffer is the subject of the modules that follow.
-/
import proofs.«132506_j10075993276849_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last fold of the segments: the generated launch over the generated segments, the last thread state read
    against the final memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The same run at a TensorCore reference that is not scoped: the final memory there is the last fold. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W13 m ρ c (Proc.devRef .tc b)) :=
  (θ_run defs _ _).mono (fun r h c b hb => h c _ (mem_uc b hb)) (run_held m ρ)

end Cert.KernelIdeal.Named

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibDenseRelu.lean ====
/-
  A dense layer with a rectifier, read at one entry, on the extended reals.

  `affine X W B p q = max(Σ k, X(p,k) · W(k,q) + B(0,q), 0)` is entry (p, q) of `max(X · W + b, 0)` with the bias row `B`
  repeated along the rows, and `affine2 H T W0 W1 B p q = max((Σ k, H(p,k) · W0(k,q) + Σ k, T(p,k) · W1(k,q)) + B(0,q), 0)`
  the same with two products. Each is reached two ways:
    * the host's way — `dot_general`, the bias row broadcast along the rows, `add`, `maximum` against a broadcast zero;
    * the vector unit's way — operands narrowed to bf16 (the identity on extended reals), a matrix product into a zero
      accumulator, the bias row re-cast and broadcast, `addf`, `maximumf` against a splat zero.
  No law of arithmetic is used beyond reading each operation at an index: the two ways are the same expression.
-/
import proofs.«132506_j10075993276849_1_alg».proof.Proof.LibHostRead
import Idealize.ShloMosaic.Lib.ValueLayout

noncomputable section

namespace Cert.LibDenseRelu

open Idealize.ShloMosaic Idealize.ShloMosaic.ValueIdx Cert.LibHostRead

variable {M K N : ℕ}

/-- Entry (p, q) of `max(X · W + b, 0)`, the bias given as a 1 × N row. -/
def affine (X : (⟨2, ![M, K]⟩ : Shape).Idx → EReal) (W : (⟨2, ![K, N]⟩ : Shape).Idx → EReal)
    (B : (⟨2, ![1, N]⟩ : Shape).Idx → EReal) (p : Fin M) (q : Fin N) : EReal :=
  max ((∑ k : Fin K, X (ix2 p k) * W (ix2 k q)) + B (ix2 (0 : Fin 1) q)) 0

/-- Entry (p, q) of `max((H · W0 + T · W1) + b, 0)`. -/
def affine2 (H T : (⟨2, ![M, K]⟩ : Shape).Idx → EReal) (W0 W1 : (⟨2, ![K, N]⟩ : Shape).Idx → EReal)
    (B : (⟨2, ![1, N]⟩ : Shape).Idx → EReal) (p : Fin M) (q : Fin N) : EReal :=
  max (((∑ k : Fin K, H (ix2 p k) * W0 (ix2 k q)) + ∑ k : Fin K, T (ix2 p k) * W1 (ix2 k q)) + B (ix2 (0 : Fin 1) q)) 0

/-- The host's dense layer at an entry. -/
theorem host_affine_apply (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (X : FVec Ideal ⟨2, ![M, K]⟩ .f32) (W : FVec Ideal ⟨2, ![K, N]⟩ .f32) (B : FVec Ideal ⟨2, ![1, N]⟩ .f32) (p : Fin M) (q : Fin N) :
    maximumf (addf (Host.dotGeneral d none X W) (broadcastInDim ⟨2, ![M, N]⟩ ![0, 1] hb B))
        (broadcastInDim ⟨2, ![M, N]⟩ ![] hz (constant (F := Ideal) ⟨0, ![]⟩ .f32 0x00000000#32)) (ix2 p q)
      = affine X W B p q := by
  rw [maximumf_apply, addf_apply, bid_1b_ab_apply, bid_scalar_apply, constant_apply, Ideal.ofBits_zero_f32]
  show max (FloatOps.dotGeneral d none .single X W (ix2 p q) + _) 0 = _
  rw [dotGeneral_plain_apply d hd]
  rfl

/-- The host's two-product layer at an entry. -/
theorem host_affine2_apply (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (H T : FVec Ideal ⟨2, ![M, K]⟩ .f32) (W0 W1 : FVec Ideal ⟨2, ![K, N]⟩ .f32) (B : FVec Ideal ⟨2, ![1, N]⟩ .f32) (p : Fin M) (q : Fin N) :
    maximumf (addf (addf (Host.dotGeneral d none H W0) (Host.dotGeneral d none T W1)) (broadcastInDim ⟨2, ![M, N]⟩ ![0, 1] hb B))
        (broadcastInDim ⟨2, ![M, N]⟩ ![] hz (constant (F := Ideal) ⟨0, ![]⟩ .f32 0x00000000#32)) (ix2 p q)
      = affine2 H T W0 W1 B p q := by
  rw [maximumf_apply, addf_apply, addf_apply, bid_1b_ab_apply, bid_scalar_apply, constant_apply, Ideal.ofBits_zero_f32]
  show max ((FloatOps.dotGeneral d none .single H W0 (ix2 p q) + FloatOps.dotGeneral d none .single T W1 (ix2 p q)) + _) 0 = _
  rw [dotGeneral_plain_apply d hd, dotGeneral_plain_apply d hd]
  rfl

/-- The vector unit's dense layer at an entry. -/
theorem vec_affine_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32) (p : Fin M) (q : Fin N) :
    maximumf (addf (matmul d none (truncf .bf16 x0 hn) (truncf .bf16 x1 hn) (constant ⟨2, ![M, N]⟩ .f32 0x00000000#32))
          (broadcastTo ⟨2, ![M, N]⟩ (shapeCast ⟨2, ![1, N]⟩ x2 hs) hbt))
        (broadcast ⟨2, ![M, N]⟩ (Scalar.ofBits (F := Ideal) .f32 0x00000000#32)) (ix2 p q)
      = affine x0 x1 x2 p q := by
  rw [maximumf_apply, addf_apply, broadcast_apply, shapeCast_self, broadcastTo_1b_ab_apply]
  show max (FloatOps.matmul d none (truncf .bf16 x0 hn) (truncf .bf16 x1 hn) (constant ⟨2, ![M, N]⟩ .f32 0x00000000#32) (ix2 p q) + _)
      (Ideal.ofBits .f32 0x00000000#32) = _
  rw [matmul_plain_zero_apply d hd, Ideal.ofBits_zero_f32]
  rfl

/-- The vector unit's two-product layer at an entry. -/
theorem vec_affine2_apply (d : DotDims ⟨2, ![M, K]⟩ ⟨2, ![K, N]⟩ ⟨2, ![M, N]⟩) (hd : PlainDot d)
    (hn : FTy.bf16.bits < FTy.f32.bits) (hc : (⟨2, ![M, K]⟩ : Shape).ShapeCasts ⟨2, ![M, K]⟩)
    (hs : (⟨2, ![1, N]⟩ : Shape).ShapeCasts ⟨2, ![1, N]⟩) (hbt : (⟨2, ![1, N]⟩ : Shape).Broadcasts ⟨2, ![M, N]⟩)
    (h t : FVec Ideal ⟨2, ![M, K]⟩ .f32) (w0 w1 : FVec Ideal ⟨2, ![K, N]⟩ .f32) (x2 : FVec Ideal ⟨2, ![1, N]⟩ .f32) (p : Fin M) (q : Fin N) :
    maximumf (addf (addf
            (matmul d none (truncf .bf16 (shapeCast ⟨2, ![M, K]⟩ h hc) hn) (truncf .bf16 w0 hn) (constant ⟨2, ![M, N]⟩ .f32 0x00000000#32))
            (matmul d none (truncf .bf16 (shapeCast ⟨2, ![M, K]⟩ t hc) hn) (truncf .bf16 w1 hn) (constant ⟨2, ![M, N]⟩ .f32 0x00000000#32)))
          (broadcastTo ⟨2, ![M, N]⟩ (shapeCast ⟨2, ![1, N]⟩ x2 hs) hbt))
        (broadcast ⟨2, ![M, N]⟩ (Scalar.ofBits (F := Ideal) .f32 0x00000000#32)) (ix2 p q)
      = affine2 h t w0 w1 x2 p q := by
  rw [maximumf_apply, addf_apply, addf_apply, broadcast_apply, shapeCast_self, shapeCast_self, shapeCast_self, broadcastTo_1b_ab_apply]
  show max ((FloatOps.matmul d none (truncf .bf16 h hn) (truncf .bf16 w0 hn) (constant ⟨2, ![M, N]⟩ .f32 0x00000000#32) (ix2 p q)
        + FloatOps.matmul d none (truncf .bf16 t hn) (truncf .bf16 w1 hn) (constant ⟨2, ![M, N]⟩ .f32 0x00000000#32) (ix2 p q)) + _)
      (Ideal.ofBits .f32 0x00000000#32) = _
  rw [matmul_plain_zero_apply d hd, matmul_plain_zero_apply d hd, Ideal.ofBits_zero_f32]
  rfl

/-! ## The layers as whole arrays -/

/-- `max(X · W + b, 0)` as an M × N array. -/
def layer (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => affine X W B ⟨(i 0).val, idx2_lt0 i⟩ ⟨(i 1).val, idx2_lt1 i⟩

/-- `max((H · W0 + T · W1) + b, 0)` as an M × N array. -/
def layer2 (H T : (⟨2, ![M, K]⟩ : Shape).Idx → EReal) (W0 W1 : (⟨2, ![K, N]⟩ : Shape).Idx → EReal)
    (B : (⟨2, ![1, N]⟩ : Shape).Idx → EReal) : (⟨2, ![M, N]⟩ : Shape).Idx → EReal :=
  fun i => affine2 H T W0 W1 B ⟨(i 0).val, idx2_lt0 i⟩ ⟨(i 1).val, idx2_lt1 i⟩

theorem layer_ix2 (X : (⟨2, ![M, K]⟩ : Shape).Idx → EReal) (W : (⟨2, ![K, N]⟩ : Shape).Idx → EReal)
    (B : (⟨2, ![1, N]⟩ : Shape).Idx → EReal) (p : Fin M) (q : Fin N) : layer X W B (ix2 p q) = affine X W B p q := rfl

theorem layer2_ix2 (H T : (⟨2, ![M, K]⟩ : Shape).Idx → EReal) (W0 W1 : (⟨2, ![K, N]⟩ : Shape).Idx → EReal)
    (B : (⟨2, ![1, N]⟩ : Shape).Idx → EReal) (p : Fin M) (q : Fin N) : layer2 H T W0 W1 B (ix2 p q) = affine2 H T W0 W1 B p q := rfl

/-- The host's dense layer is that array. -/
theorem host_layer_eq (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (X : FVec Ideal ⟨2, ![M, K]⟩ .f32) (W : FVec Ideal ⟨2, ![K, N]⟩ .f32) (B : FVec Ideal ⟨2, ![1, N]⟩ .f32) :
    maximumf (addf (Host.dotGeneral d none X W) (broadcastInDim ⟨2, ![M, N]⟩ ![0, 1] hb B))
        (broadcastInDim ⟨2, ![M, N]⟩ ![] hz (constant (F := Ideal) ⟨0, ![]⟩ .f32 0x00000000#32))
      = layer X W B := by
  funext i
  obtain ⟨p, q, rfl⟩ : ∃ (p : Fin M) (q : Fin N), i = ix2 p q := ⟨i 0, i 1, eq_ix2 i⟩
  exact host_affine_apply d hd hb hz X W B p q

/-- The host's two-product layer is that array. -/
theorem host_layer2_eq (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (H T : FVec Ideal ⟨2, ![M, K]⟩ .f32) (W0 W1 : FVec Ideal ⟨2, ![K, N]⟩ .f32) (B : FVec Ideal ⟨2, ![1, N]⟩ .f32) :
    maximumf (addf (addf (Host.dotGeneral d none H W0) (Host.dotGeneral d none T W1)) (broadcastInDim ⟨2, ![M, N]⟩ ![0, 1] hb B))
        (broadcastInDim ⟨2, ![M, N]⟩ ![] hz (constant (F := Ideal) ⟨0, ![]⟩ .f32 0x00000000#32))
      = layer2 H T W0 W1 B := by
  funext i
  obtain ⟨p, q, rfl⟩ : ∃ (p : Fin M) (q : Fin N), i = ix2 p q := ⟨i 0, i 1, eq_ix2 i⟩
  exact host_affine2_apply d hd hb hz H T W0 W1 B p q

/-- A layer's entry (p, q) reads row `p` of its first operand, column `q` of the weights and entry `q` of the bias row:
    operands that agree there (row `p` of one against row `r` of the other) give the same entry. Used to read a block of
    rows out of the whole array. -/
theorem affine_congr {M' : ℕ} (X : (⟨2, ![M, K]⟩ : Shape).Idx → EReal) (X' : (⟨2, ![M', K]⟩ : Shape).Idx → EReal)
    (W W' : (⟨2, ![K, N]⟩ : Shape).Idx → EReal) (B B' : (⟨2, ![1, N]⟩ : Shape).Idx → EReal) (p : Fin M) (r : Fin M') (q : Fin N)
    (hX : ∀ k : Fin K, X (ix2 p k) = X' (ix2 r k)) (hW : ∀ k : Fin K, W (ix2 k q) = W' (ix2 k q))
    (hB : B (ix2 (0 : Fin 1) q) = B' (ix2 (0 : Fin 1) q)) : affine X W B p q = affine X' W' B' r q := by
  unfold affine
  simp only [hX, hW, hB]

theorem affine2_congr {M' : ℕ} (H T : (⟨2, ![M, K]⟩ : Shape).Idx → EReal) (H' T' : (⟨2, ![M', K]⟩ : Shape).Idx → EReal)
    (W0 W0' W1 W1' : (⟨2, ![K, N]⟩ : Shape).Idx → EReal) (B B' : (⟨2, ![1, N]⟩ : Shape).Idx → EReal) (p : Fin M) (r : Fin M') (q : Fin N)
    (hH : ∀ k : Fin K, H (ix2 p k) = H' (ix2 r k)) (hT : ∀ k : Fin K, T (ix2 p k) = T' (ix2 r k))
    (hW0 : ∀ k : Fin K, W0 (ix2 k q) = W0' (ix2 k q)) (hW1 : ∀ k : Fin K, W1 (ix2 k q) = W1' (ix2 k q))
    (hB : B (ix2 (0 : Fin 1) q) = B' (ix2 (0 : Fin 1) q)) :
    affine2 H T W0 W1 B p q = affine2 H' T' W0' W1' B' r q := by
  unfold affine2
  simp only [hH, hT, hW0, hW1, hB]

end Cert.LibDenseRelu

end
-- ==== Proof.Lin0.lean ====
/-
  Region 0 (a dense layer over the nodes, 5000 rows per grid point, 20 points): what its output array holds.

  At point `t` the body reads rows `5000 t … 5000 t + 4999` of the node features, the whole weight matrix and the whole
  bias row, and stores `max(x · W + b, 0)` of them as rows `5000 t … 5000 t + 4999` of the output. Entry (p, q) of a layer
  reads only row p of the features, so what point `t` writes back is block `t` of the layer of the WHOLE arrays; the twenty
  blocks tile the 100000 rows; hence after the region the output array is the layer of the arrays as the region found them.
-/
import proofs.«132506_j10075993276849_1_alg».proof.Proof.Gen.KernelIdeal.Frame
import proofs.«132506_j10075993276849_1_alg».proof.Proof.LibDenseRelu
import Idealize.ShloMosaic.Lib.Pipeline.Value

set_option maxRecDepth 16384

noncomputable section

namespace Cert.KernelIdeal.Lin0

open Cert.KernelIdeal Cert.KernelIdeal.Gen
open Idealize.ShloMosaic Idealize.ShloMosaic.TcCoe Idealize.SL.Sem Idealize.ShloMosaic.ValueIdx
open Cert.LibHostRead Cert.LibDenseRelu
open Idealize.ShloMosaic.Pipeline (Dat Cfg Window)

variable (V : (c : Dev nD) → (b : Ref sig .tc) → Buf (Elt Ideal) ((c : Thread nD τ).loc b))

/-- The body's matrix product is rows × contraction by contraction × columns. -/
theorem plain : PlainDot dot_S5000x128_S128x64_S5000x64_1_0_0_1_n_n where
  hr := rfl
  hs := rfl
  hl0 := fun i q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  hl1 := fun i q => dot_S5000x128_S128x64_S5000x64_1_0_0_1_n_n.lhsIdx_val_of_single rfl i q
  hr0 := fun i q => dot_S5000x128_S128x64_S5000x64_1_0_0_1_n_n.rhsIdx_val_of_single rfl i q
  hr1 := fun i q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The body's arithmetic at an entry of the block. -/
theorem pay_at (x0 : Vec Ideal S5000x128 .f32) (x1 : Vec Ideal S128x64 .f32) (x2 : Vec Ideal S1x64 .f32) (p : Fin 5000) (q : Fin 64) :
    k0_pay1 (F := Ideal) x0 x1 x2 (ix2 p q) = affine x0 x1 x2 p q := by
  unfold k0_pay1
  exact vec_affine_apply _ plain _ _ _ x0 x1 x2 p q

theorem zero2 : (![0, 0] : Fin 2 → Nat) = fun _ => 0 := funext fun a => by fin_cases a <;> rfl

/-- The printed index maps over the grid: the feature and output blocks move with the point, the weights and the bias
    stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer of the whole arrays. -/
theorem flushed_eq (c : Dev nD) (t : Fin cfg0.N) :
    (dat0 V c).flushed 3 t = ((cfg0.win 3).blk t).view.read (Elt Ideal)
      (layer (V c main_arg0) (V c main_arg6) (V c main_v0)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x64) zero2, View.ld_unit_zero (S := S1x64) zero2]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  refine (pay_at _ _ _ p q).trans ?_
  show _ = layer (V c main_arg0) (V c main_arg6) (V c main_v0) (((cfg0.win 3).blk t).view.emb (ix2 p q))
  unfold layer
  have hq : (⟨((((cfg0.win 3).blk t).view.emb (ix2 p q)) 1).val, idx2_lt1 _⟩ : Fin 64) = q :=
    Fin.ext (by show win0_3.index t (1 : Fin 2) * 64 + 1 * q.val = q.val; omega)
  rw [hq]
  refine affine_congr _ _ _ _ _ _ p _ q (fun k => ?_) (fun k => ?_) ?_
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg6 (((cfg0.win 1).blk t).view.emb (ix2 k q)) = V c main_arg6 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show V c main_v0 (((cfg0.win 2).blk t).view.emb (ix2 (0 : Fin 1) q)) = V c main_v0 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- The twenty blocks tile the array: row `r` is in the block of point `r / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk]
  obtain ⟨-, -, -, -, -, -, e30, e31⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e31]; omega

/-- THE OUTPUT ARRAY after the region is the layer of the arrays the region found. -/
theorem array_eq (c : Dev nD) :
    (dat0 V c).arrAt 3 cfg0.N = layer (V c main_arg0) (V c main_arg6) (V c main_v0) :=
  (dat0 V c).arrAt_eq_of_cover 3 _ (fun t _ => flushed_eq V c t) (cover)

end Cert.KernelIdeal.Lin0

end
-- ==== Proof.Comb1.lean ====
/-
  Region 1 (the combining layer over the nodes, 5000 rows per grid point, 20 points): what its output array holds.

  At point `t` the body reads rows `5000 t … 5000 t + 4999` of the node features `h` and of their adjacency product `tx`,
  the two whole 64 × 64 weight matrices and the whole bias row, and stores `max((h · W0 + tx · W1) + b, 0)` of them as the
  same rows of the output. Entry (p, q) reads only row p of `h` and of `tx`, so what point `t` writes back is block `t` of
  the layer of the WHOLE arrays; the twenty blocks tile the 100000 rows; hence after the region the output array is the
  layer of the arrays as the region found them.
-/
import proofs.«132506_j10075993276849_1_alg».proof.Proof.Gen.KernelIdeal.Frame
import proofs.«132506_j10075993276849_1_alg».proof.Proof.LibDenseRelu
import Idealize.ShloMosaic.Lib.Pipeline.Value

set_option maxRecDepth 16384

noncomputable section

namespace Cert.KernelIdeal.Comb1

open Cert.KernelIdeal Cert.KernelIdeal.Gen
open Idealize.ShloMosaic Idealize.ShloMosaic.TcCoe Idealize.SL.Sem Idealize.ShloMosaic.ValueIdx
open Cert.LibHostRead Cert.LibDenseRelu
open Idealize.ShloMosaic.Pipeline (Dat Cfg Window)

variable (V : (c : Dev nD) → (b : Ref sig .tc) → Buf (Elt Ideal) ((c : Thread nD τ).loc b))

/-- The body's matrix products are rows × contraction by contraction × columns. -/
theorem plain : PlainDot dot_S5000x64_S64x64_S5000x64_1_0_0_1_n_n where
  hr := rfl
  hs := rfl
  hl0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  hl1 := fun i q => dot_S5000x64_S64x64_S5000x64_1_0_0_1_n_n.lhsIdx_val_of_single rfl i q
  hr0 := fun i q => dot_S5000x64_S64x64_S5000x64_1_0_0_1_n_n.rhsIdx_val_of_single rfl i q
  hr1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's arithmetic at an entry of the block. -/
theorem pay_at (x0 x1 : Vec Ideal S5000x64 .f32) (x2 x3 : Vec Ideal S64x64 .f32) (x4 : Vec Ideal S1x64 .f32) (p : Fin 5000) (q : Fin 64) :
    k1_pay1 (F := Ideal) x0 x1 x2 x3 x4 (ix2 p q) = affine2 x0 x1 x2 x3 x4 p q := by
  unfold k1_pay1
  exact vec_affine2_apply _ plain _ _ _ _ x0 x1 x2 x3 x4 p q

theorem zero2 : (![0, 0] : Fin 2 → Nat) = fun _ => 0 := funext fun a => by fin_cases a <;> rfl

/-- The printed index maps over the grid: the two feature blocks and the output block move with the point, the weights and
    the bias stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer of the whole arrays. -/
theorem flushed_eq (c : Dev nD) (t : Fin cfg1.N) :
    (dat1 V c).flushed 5 t = ((cfg1.win 5).blk t).view.read (Elt Ideal)
      (layer2 (V c main_v1) (V c main_v44) (V c main_arg8) (V c main_arg9) (V c main_v45)) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S64x64) zero2, View.ld_unit_zero (S := S1x64) zero2]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  refine (pay_at _ _ _ _ _ p q).trans ?_
  show _ = layer2 (V c main_v1) (V c main_v44) (V c main_arg8) (V c main_arg9) (V c main_v45) (((cfg1.win 5).blk t).view.emb (ix2 p q))
  unfold layer2
  have hq : (⟨((((cfg1.win 5).blk t).view.emb (ix2 p q)) 1).val, idx2_lt1 _⟩ : Fin 64) = q :=
    Fin.ext (by show win1_5.index t (1 : Fin 2) * 64 + 1 * q.val = q.val; omega)
  rw [hq]
  refine affine2_congr _ _ _ _ _ _ _ _ _ _ p _ q (fun k => ?_) (fun k => ?_) (fun k => ?_) (fun k => ?_) ?_
  · show V c main_v1 (((cfg1.win 0).blk t).view.emb (ix2 p k)) = V c main_v1 (ix2 _ k)
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  · show V c main_v44 (((cfg1.win 1).blk t).view.emb (ix2 p k)) = V c main_v44 (ix2 _ k)
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  · show V c main_arg8 (((cfg1.win 2).blk t).view.emb (ix2 k q)) = V c main_arg8 (ix2 _ q)
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · show V c main_arg9 (((cfg1.win 3).blk t).view.emb (ix2 k q)) = V c main_arg9 (ix2 _ q)
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · show V c main_v45 (((cfg1.win 4).blk t).view.emb (ix2 (0 : Fin 1) q)) = V c main_v45 (ix2 _ q)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v46).slice (win1_5.rect t)).set ↔ _
  rw [View.set_slice_whole, Rect.mem_set_unit]
  exact Iff.rfl

/-- The twenty blocks tile the array: row `r` is in the block of point `r / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk]
  obtain ⟨-, -, -, -, -, -, -, -, -, -, e50, e51⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e51]; omega

/-- THE OUTPUT ARRAY after the region is the layer of the arrays the region found. -/
theorem array_eq (c : Dev nD) :
    (dat1 V c).arrAt 5 cfg1.N = layer2 (V c main_v1) (V c main_v44) (V c main_arg8) (V c main_arg9) (V c main_v45) :=
  (dat1 V c).arrAt_eq_of_cover 5 _ (fun t _ => flushed_eq V c t) (cover)

end Cert.KernelIdeal.Comb1

end
-- ==== Proof.Lin2.lean ====
/-
  Region 2 (a dense layer over the nodes, 5000 rows per grid point, 20 points): what its output array holds.

  At point `t` the body reads rows `5000 t … 5000 t + 4999` of the node features, the whole weight matrix and the whole
  bias row, and stores `max(x · W + b, 0)` of them as rows `5000 t … 5000 t + 4999` of the output. Entry (p, q) of a layer
  reads only row p of the features, so what point `t` writes back is block `t` of the layer of the WHOLE arrays; the twenty
  blocks tile the 100000 rows; hence after the region the output array is the layer of the arrays as the region found them.
-/
import proofs.«132506_j10075993276849_1_alg».proof.Proof.Gen.KernelIdeal.Frame
import proofs.«132506_j10075993276849_1_alg».proof.Proof.LibDenseRelu
import Idealize.ShloMosaic.Lib.Pipeline.Value

set_option maxRecDepth 16384

noncomputable section

namespace Cert.KernelIdeal.Lin2

open Cert.KernelIdeal Cert.KernelIdeal.Gen
open Idealize.ShloMosaic Idealize.ShloMosaic.TcCoe Idealize.SL.Sem Idealize.ShloMosaic.ValueIdx
open Cert.LibHostRead Cert.LibDenseRelu
open Idealize.ShloMosaic.Pipeline (Dat Cfg Window)

variable (V : (c : Dev nD) → (b : Ref sig .tc) → Buf (Elt Ideal) ((c : Thread nD τ).loc b))

/-- The body's matrix product is rows × contraction by contraction × columns. -/
theorem plain : PlainDot dot_S5000x128_S128x64_S5000x64_1_0_0_1_n_n where
  hr := rfl
  hs := rfl
  hl0 := fun i q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  hl1 := fun i q => dot_S5000x128_S128x64_S5000x64_1_0_0_1_n_n.lhsIdx_val_of_single rfl i q
  hr0 := fun i q => dot_S5000x128_S128x64_S5000x64_1_0_0_1_n_n.rhsIdx_val_of_single rfl i q
  hr1 := fun i q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The body's arithmetic at an entry of the block. -/
theorem pay_at (x0 : Vec Ideal S5000x128 .f32) (x1 : Vec Ideal S128x64 .f32) (x2 : Vec Ideal S1x64 .f32) (p : Fin 5000) (q : Fin 64) :
    k2_pay1 (F := Ideal) x0 x1 x2 (ix2 p q) = affine x0 x1 x2 p q := by
  unfold k2_pay1
  exact vec_affine_apply _ plain _ _ _ x0 x1 x2 p q

theorem zero2 : (![0, 0] : Fin 2 → Nat) = fun _ => 0 := funext fun a => by fin_cases a <;> rfl

/-- The printed index maps over the grid: the feature and output blocks move with the point, the weights and the bias
    stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the layer of the whole arrays. -/
theorem flushed_eq (c : Dev nD) (t : Fin cfg2.N) :
    (dat2 V c).flushed 3 t = ((cfg2.win 3).blk t).view.read (Elt Ideal)
      (layer (V c main_arg1) (V c main_arg11) (V c main_v50)) := by
  show (cfg2.win 3).cut (grid2.coords t) ((dat2 V c).after 3 t) = _
  rw [after2_3]
  unfold out2_3
  rw [View.canon_unit_zero zero2]
  simp only [View.ld_unit_zero (S := S5000x128) zero2, View.ld_unit_zero (S := S128x64) zero2, View.ld_unit_zero (S := S1x64) zero2]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  refine (pay_at _ _ _ p q).trans ?_
  show _ = layer (V c main_arg1) (V c main_arg11) (V c main_v50) (((cfg2.win 3).blk t).view.emb (ix2 p q))
  unfold layer
  have hq : (⟨((((cfg2.win 3).blk t).view.emb (ix2 p q)) 1).val, idx2_lt1 _⟩ : Fin 64) = q :=
    Fin.ext (by show win2_3.index t (1 : Fin 2) * 64 + 1 * q.val = q.val; omega)
  rw [hq]
  refine affine_congr _ _ _ _ _ _ p _ q (fun k => ?_) (fun k => ?_) ?_
  · show V c main_arg1 (((cfg2.win 0).blk t).view.emb (ix2 p k)) = V c main_arg1 (ix2 _ k)
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show V c main_arg11 (((cfg2.win 1).blk t).view.emb (ix2 k q)) = V c main_arg11 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · show V c main_v50 (((cfg2.win 2).blk t).view.emb (ix2 (0 : Fin 1) q)) = V c main_v50 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v51).slice (win2_3.rect t)).set ↔ _
  rw [View.set_slice_whole, Rect.mem_set_unit]
  exact Iff.rfl

/-- The twenty blocks tile the array: row `r` is in the block of point `r / 5000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk]
  obtain ⟨-, -, -, -, -, -, e30, e31⟩ := idx_facts ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 64 ≤ (i 1).val ∧ (i 1).val < win2_3.index _ (1 : Fin 2) * 64 + 64
    rw [e31]; omega

/-- THE OUTPUT ARRAY after the region is the layer of the arrays the region found. -/
theorem array_eq (c : Dev nD) :
    (dat2 V c).arrAt 3 cfg2.N = layer (V c main_arg1) (V c main_arg11) (V c main_v50) :=
  (dat2 V c).arrAt_eq_of_cover 3 _ (fun t _ => flushed_eq V c t) (cover)

end Cert.KernelIdeal.Lin2

end
-- ==== Proof.Comb3.lean ====
/-
  Region 3 (the combining layer over the nodes, 5000 rows per grid point, 20 points): what its output array holds.

  At point `t` the body reads rows `5000 t … 5000 t + 4999` of the node features `h` and of their adjacency product `tx`,
  the two whole 64 × 64 weight matrices and the whole bias row, and stores `max((h · W0 + tx · W1) + b, 0)` of them as the
  same rows of the output. Entry (p, q) reads only row p of `h` and of `tx`, so what point `t` writes back is block `t` of
  the layer of the WHOLE arrays; the twenty blocks tile the 100000 rows; hence after the region the output array is the
  layer of the arrays as the region found them.
-/
import proofs.«132506_j10075993276849_1_alg».proof.Proof.Gen.KernelIdeal.Frame
import proofs.«132506_j10075993276849_1_alg».proof.Proof.LibDenseRelu
import Idealize.ShloMosaic.Lib.Pipeline.Value

set_option maxRecDepth 16384

noncomputable section

namespace Cert.KernelIdeal.Comb3

open Cert.KernelIdeal Cert.KernelIdeal.Gen
open Idealize.ShloMosaic Idealize.ShloMosaic.TcCoe Idealize.SL.Sem Idealize.ShloMosaic.ValueIdx
open Cert.LibHostRead Cert.LibDenseRelu
open Idealize.ShloMosaic.Pipeline (Dat Cfg Window)

variable (V : (c : Dev nD) → (b : Ref sig .tc) → Buf (Elt Ideal) ((c : Thread nD τ).loc b))

/-- The body's matrix products are rows × contraction by contraction × columns. -/
theorem plain : PlainDot dot_S5000x64_S64x64_S5000x64_1_0_0_1_n_n where
  hr := rfl
  hs := rfl
  hl0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  hl1 := fun i q => dot_S5000x64_S64x64_S5000x64_1_0_0_1_n_n.lhsIdx_val_of_single rfl i q
  hr0 := fun i q => dot_S5000x64_S64x64_S5000x64_1_0_0_1_n_n.rhsIdx_val_of_single rfl i q
  hr1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The body's arithmetic at an entry of the block. -/
theorem pay_at (x0 x1 : Vec Ideal S5000x64 .f32) (x2 x3 : Vec Ideal S64x64 .f32) (x4 : Vec Ideal S1x64 .f32) (p : Fin 5000) (q : Fin 64) :
    k3_pay1 (F := Ideal) x0 x1 x2 x3 x4 (ix2 p q) = affine2 x0 x1 x2 x3 x4 p q := by
  unfold k3_pay1
  exact vec_affine2_apply _ plain _ _ _ _ x0 x1 x2 x3 x4 p q

theorem zero2 : (![0, 0] : Fin 2 → Nat) = fun _ => 0 := funext fun a => by fin_cases a <;> rfl

/-- The printed index maps over the grid: the two feature blocks and the output block move with the point, the weights and
    the bias stay at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of the layer of the whole arrays. -/
theorem flushed_eq (c : Dev nD) (t : Fin cfg3.N) :
    (dat3 V c).flushed 5 t = ((cfg3.win 5).blk t).view.read (Elt Ideal)
      (layer2 (V c main_v51) (V c main_v94) (V c main_arg13) (V c main_arg14) (V c main_v95)) := by
  show (cfg3.win 5).cut (grid3.coords t) ((dat3 V c).after 5 t) = _
  rw [after3_5]
  unfold out3_5
  rw [View.canon_unit_zero zero2]
  simp only [View.ld_unit_zero (S := S5000x64) zero2, View.ld_unit_zero (S := S64x64) zero2, View.ld_unit_zero (S := S1x64) zero2]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  refine (pay_at _ _ _ _ _ p q).trans ?_
  show _ = layer2 (V c main_v51) (V c main_v94) (V c main_arg13) (V c main_arg14) (V c main_v95) (((cfg3.win 5).blk t).view.emb (ix2 p q))
  unfold layer2
  have hq : (⟨((((cfg3.win 5).blk t).view.emb (ix2 p q)) 1).val, idx2_lt1 _⟩ : Fin 64) = q :=
    Fin.ext (by show win3_5.index t (1 : Fin 2) * 64 + 1 * q.val = q.val; omega)
  rw [hq]
  refine affine2_congr _ _ _ _ _ _ _ _ _ _ p _ q (fun k => ?_) (fun k => ?_) (fun k => ?_) (fun k => ?_) ?_
  · show V c main_v51 (((cfg3.win 0).blk t).view.emb (ix2 p k)) = V c main_v51 (ix2 _ k)
    refine congrArg _ (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 64 + 1 * k.val = k.val; omega
  · show V c main_v94 (((cfg3.win 1).blk t).view.emb (ix2 p k)) = V c main_v94 (ix2 _ k)
    refine congrArg _ (funext fun a => Fin.ext ?_)
    match a with
    | ⟨0, _⟩ => show win3_1.index t (0 : Fin 2) * 5000 + 1 * p.val = win3_5.index t (0 : Fin 2) * 5000 + 1 * p.val; omega
    | ⟨1, _⟩ => show win3_1.index t (1 : Fin 2) * 64 + 1 * k.val = k.val; omega
  · show V c main_arg13 (((cfg3.win 2).blk t).view.emb (ix2 k q)) = V c main_arg13 (ix2 _ q)
    refine congrArg _ (funext fun a => Fin.ext ?_)
    match a with
    | ⟨0, _⟩ => show win3_2.index t (0 : Fin 2) * 64 + 1 * k.val = k.val; omega
    | ⟨1, _⟩ => show win3_2.index t (1 : Fin 2) * 64 + 1 * q.val = q.val; omega
  · show V c main_arg14 (((cfg3.win 3).blk t).view.emb (ix2 k q)) = V c main_arg14 (ix2 _ q)
    refine congrArg _ (funext fun a => Fin.ext ?_)
    match a with
    | ⟨0, _⟩ => show win3_3.index t (0 : Fin 2) * 64 + 1 * k.val = k.val; omega
    | ⟨1, _⟩ => show win3_3.index t (1 : Fin 2) * 64 + 1 * q.val = q.val; omega
  · show V c main_v95 (((cfg3.win 4).blk t).view.emb (ix2 (0 : Fin 1) q)) = V c main_v95 (ix2 _ q)
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega

/-- An index of the output array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v96).slice (win3_5.rect t)).set ↔ _
  rw [View.set_slice_whole, Rect.mem_set_unit]
  exact Iff.rfl

/-- The twenty blocks tile the array: row `r` is in the block of point `r / 5000`. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  rw [mem_blk]
  obtain ⟨-, -, -, -, -, -, -, -, -, -, e50, e51⟩ := idx_facts ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 64 ≤ (i 1).val ∧ (i 1).val < win3_5.index _ (1 : Fin 2) * 64 + 64
    rw [e51]; omega

/-- THE OUTPUT ARRAY after the region is the layer of the arrays the region found. -/
theorem array_eq (c : Dev nD) :
    (dat3 V c).arrAt 5 cfg3.N = layer2 (V c main_v51) (V c main_v94) (V c main_arg13) (V c main_arg14) (V c main_v95) :=
  (dat3 V c).arrAt_eq_of_cover 5 _ (fun t _ => flushed_eq V c t) (cover)

end Cert.KernelIdeal.Comb3

end
-- ==== Proof.SpecAt.lean ====
/-
  The specification's two layers, index by index.

  `lin` and `comb` are written with the host's operations; at each entry they are the dense-layer expressions
  `max(Σ x·W + b, 0)` and `max((Σ h·W0 + Σ t·W1) + b, 0)`, so as whole arrays they are `layer` and `layer2`. A bias vector
  re-cast as a 1 × 64 row and the same vector broadcast into the row are the same array.
-/
import proofs.«132506_j10075993276849_1_alg».proof.Proof.Spec
import proofs.«132506_j10075993276849_1_alg».proof.Proof.LibDenseRelu

noncomputable section

namespace Cert.GraphNet

open Cert.ReferenceIdeal Cert.ReferenceIdeal.Gen Idealize.ShloMosaic Idealize.ShloMosaic.ValueIdx
open Cert.LibHostRead Cert.LibDenseRelu

/-- The first layer's product is rows × contraction by contraction × columns. -/
theorem plainLin : PlainDot dot_S100000x128_S128x64_S100000x64_1_0_0_1_n_n where
  hr := rfl
  hs := rfl
  hl0 := fun i q => by
    unfold DotDims.lhsIdx
    rw [dif_neg (show ¬(0 : Fin S100000x128.rank) ∈ dot_S100000x128_S128x64_S100000x64_1_0_0_1_n_n.lhsBatch by decide),
      dif_pos (show (0 : Fin S100000x128.rank) ∈ dot_S100000x128_S128x64_S100000x64_1_0_0_1_n_n.lhsNonContracting by decide)]
    rfl
  hl1 := fun i q => dot_S100000x128_S128x64_S100000x64_1_0_0_1_n_n.lhsIdx_val_of_single rfl i q
  hr0 := fun i q => dot_S100000x128_S128x64_S100000x64_1_0_0_1_n_n.rhsIdx_val_of_single rfl i q
  hr1 := fun i q => by
    unfold DotDims.rhsIdx
    rw [dif_neg (show ¬(1 : Fin S128x64.rank) ∈ dot_S100000x128_S128x64_S100000x64_1_0_0_1_n_n.rhsBatch by decide),
      dif_pos (show (1 : Fin S128x64.rank) ∈ dot_S100000x128_S128x64_S100000x64_1_0_0_1_n_n.rhsNonContracting by decide)]
    rfl

/-- So are the combining layer's two products. -/
theorem plainComb : PlainDot dot_S100000x64_S64x64_S100000x64_1_0_0_1_n_n where
  hr := rfl
  hs := rfl
  hl0 := fun i q => by
    unfold DotDims.lhsIdx
    rw [dif_neg (show ¬(0 : Fin S100000x64.rank) ∈ dot_S100000x64_S64x64_S100000x64_1_0_0_1_n_n.lhsBatch by decide),
      dif_pos (show (0 : Fin S100000x64.rank) ∈ dot_S100000x64_S64x64_S100000x64_1_0_0_1_n_n.lhsNonContracting by decide)]
    rfl
  hl1 := fun i q => dot_S100000x64_S64x64_S100000x64_1_0_0_1_n_n.lhsIdx_val_of_single rfl i q
  hr0 := fun i q => dot_S100000x64_S64x64_S100000x64_1_0_0_1_n_n.rhsIdx_val_of_single rfl i q
  hr1 := fun i q => by
    unfold DotDims.rhsIdx
    rw [dif_neg (show ¬(1 : Fin S64x64.rank) ∈ dot_S100000x64_S64x64_S100000x64_1_0_0_1_n_n.rhsBatch by decide),
      dif_pos (show (1 : Fin S64x64.rank) ∈ dot_S100000x64_S64x64_S100000x64_1_0_0_1_n_n.rhsNonContracting by decide)]
    rfl

/-- The dense layer of the specification is the array of its entries. -/
theorem lin_eq_layer (X : (⟨S100000x128, .f32⟩ : BufTy).Contents (Elt Ideal)) (W : (⟨S128x64, .f32⟩ : BufTy).Contents (Elt Ideal)) (B : (⟨S1x64, .f32⟩ : BufTy).Contents (Elt Ideal)) :
    lin (F := Ideal) X W B = layer X W B := by
  unfold lin
  exact host_layer_eq _ plainLin _ _ X W B

/-- The combining layer of the specification is the array of its entries. -/
theorem comb_eq_layer2 (H T : (⟨S100000x64, .f32⟩ : BufTy).Contents (Elt Ideal)) (W0 W1 : (⟨S64x64, .f32⟩ : BufTy).Contents (Elt Ideal)) (B : (⟨S1x64, .f32⟩ : BufTy).Contents (Elt Ideal)) :
    comb (F := Ideal) H T W0 W1 B = layer2 H T W0 W1 B := by
  unfold comb
  exact host_layer2_eq _ plainComb _ _ H T W0 W1 B

/-- A 64-vector re-cast as a 1 × 64 array is the vector placed as its one row. -/
theorem cast_eq_row (b : (⟨S64, .f32⟩ : BufTy).Contents (Elt Ideal)) (h : S64.ShapeCasts S1x64) :
    shapeCast S1x64 b h = row (F := Ideal) b := by
  funext i
  obtain ⟨u, q, rfl⟩ : ∃ (u : Fin 1) (q : Fin 64), i = ix2 u q := ⟨i 0, i 1, eq_ix2 i⟩
  unfold row
  rw [shapeCast_a_1a_apply, bid_b_1b_apply]

end Cert.GraphNet

end
-- ==== Proof.KernelHost.lean ====
/-
  The two adjacency products in the kernel's program, read off the fold at any float instance.

  Between its first and second region (and again between its third and fourth) the program computes, with host operations,
  the normalised-adjacency product of the dense layer's output along the edge list. Read through those operations, the
  product's buffer holds exactly the specification's `mix` of what the stretch found in the layer's output buffer and in
  the edge-list argument: the operations and their dimension records are the specification's own, one for one. The reading
  is made at an arbitrary float instance, where the operations are opaque and only their arrangement is compared.
-/
import proofs.«132506_j10075993276849_1_alg».proof.Proof.Gen.KernelIdeal.Frame
import proofs.«132506_j10075993276849_1_alg».proof.Proof.Spec
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first encoder's adjacency product, after the stretch between regions 0 and 1. -/
theorem mix_read1 (c : Dev nD) :
    W5 m ρ c (Proc.devRef .tc main_v44)
      = GraphNet.mix (F := F) (W2 m ρ c (Proc.devRef .tc main_v1)) (W2 m ρ c (Proc.devRef .tc main_arg2)) := by
  show StableHlo.after hostOps1_2 (StableHlo.after hostOps1_1 (StableHlo.after hostOps1 (W2 m ρ c))) (Proc.devRef .tc main_v44) = _
  simp only [hostOps1, hostOps1_1, hostOps1_2]
  after_results_simp <;> (unfold GraphNet.mix; rfl)

/-- The second encoder's adjacency product, after the stretch between regions 2 and 3. -/
theorem mix_read2 (c : Dev nD) :
    W11 m ρ c (Proc.devRef .tc main_v94)
      = GraphNet.mix (F := F) (W8 m ρ c (Proc.devRef .tc main_v51)) (W8 m ρ c (Proc.devRef .tc main_arg3)) := by
  show StableHlo.after hostOps3_2 (StableHlo.after hostOps3_1 (StableHlo.after hostOps3 (W8 m ρ c))) (Proc.devRef .tc main_v94) = _
  simp only [hostOps3, hostOps3_1, hostOps3_2]
  after_results_simp <;> (unfold GraphNet.mix; rfl)

end Cert.KernelIdeal.Named

end
-- ==== Proof.KernelValue.lean ====
/-
  What the idealized kernel's program leaves in its result buffer: the specification's network of the argument arrays.

  The generated run folds the buffer contents through thirteen segments. Reading the result buffer back through the fold
  meets, in order: the read-out (host operations), the second encoder's combining layer (a region), its adjacency product
  (host), its dense layer (a region), the first encoder's pooling (host), combining layer (a region), adjacency product
  (host) and dense layer (a region). At each boundary this module records what every buffer still to be read holds, as a
  closed expression of the argument arrays:
    * a buffer no operation of a host stretch writes, and a buffer that is not an output of a region, keeps its contents;
    * a host stretch's result is the stretch's operations of what it read — the same operations the specification is
      written with, over the same dimension records;
    * a region's output is the dense (or combining) layer of the arrays the region found (the region modules), which is
      the specification's layer of them (the link module).
-/
import proofs.«132506_j10075993276849_1_alg».proof.Proof.KernelRun
import proofs.«132506_j10075993276849_1_alg».proof.Proof.Lin0
import proofs.«132506_j10075993276849_1_alg».proof.Proof.Comb1
import proofs.«132506_j10075993276849_1_alg».proof.Proof.Lin2
import proofs.«132506_j10075993276849_1_alg».proof.Proof.Comb3
import proofs.«132506_j10075993276849_1_alg».proof.Proof.SpecAt
import proofs.«132506_j10075993276849_1_alg».proof.Proof.KernelHost
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The intermediate arrays, as expressions of the arguments -/

/-- First encoder: the dense layer's output. -/
def hid1 (c : Dev nD) := GraphNet.lin (F := Ideal) (m ((c : Thread nD τ).loc main_arg0)) (m ((c : Thread nD τ).loc main_arg6)) (GraphNet.row (m ((c : Thread nD τ).loc main_arg7)))
/-- First encoder: the adjacency product of it. -/
def adj1 (c : Dev nD) := GraphNet.mix (F := Ideal) (hid1 m c) (m ((c : Thread nD τ).loc main_arg2))
/-- First encoder: the combining layer's output. -/
def out1 (c : Dev nD) := GraphNet.comb (F := Ideal) (hid1 m c) (adj1 m c) (m ((c : Thread nD τ).loc main_arg8)) (m ((c : Thread nD τ).loc main_arg9)) (GraphNet.row (m ((c : Thread nD τ).loc main_arg10)))
/-- First encoder: the per-graph sums. -/
def sum1 (c : Dev nD) := GraphNet.pool (F := Ideal) (out1 m c) (m ((c : Thread nD τ).loc main_arg4))
/-- Second encoder: the dense layer's output. -/
def hid2 (c : Dev nD) := GraphNet.lin (F := Ideal) (m ((c : Thread nD τ).loc main_arg1)) (m ((c : Thread nD τ).loc main_arg11)) (GraphNet.row (m ((c : Thread nD τ).loc main_arg12)))
/-- Second encoder: the adjacency product of it. -/
def adj2 (c : Dev nD) := GraphNet.mix (F := Ideal) (hid2 m c) (m ((c : Thread nD τ).loc main_arg3))
/-- Second encoder: the combining layer's output. -/
def out2 (c : Dev nD) := GraphNet.comb (F := Ideal) (hid2 m c) (adj2 m c) (m ((c : Thread nD τ).loc main_arg13)) (m ((c : Thread nD τ).loc main_arg14)) (GraphNet.row (m ((c : Thread nD τ).loc main_arg15)))
/-- The read-out of the two encoders' pooled outputs. -/
def result (c : Dev nD) := GraphNet.tail (F := Ideal) (sum1 m c) (GraphNet.pool (F := Ideal) (out2 m c) (m ((c : Thread nD τ).loc main_arg5))) (m ((c : Thread nD τ).loc main_arg16)) (m ((c : Thread nD τ).loc main_arg17))

/-- Reads a buffer through a stretch of host operations: unfolds the stretch, then each operation's result at its own
    buffer is its function's value and at any other buffer what was there. -/
local macro "host_read" : tactic =>
  `(tactic| (simp only [hostOps0, hostOps1, hostOps1_1, hostOps1_2, hostOps2, hostOps3, hostOps3_1, hostOps3_2, hostOps4]
             after_results_simp))

/-! ## Boundary 1 -/

theorem W1_main_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by host_read).trans (rfl)
theorem W1_main_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) by host_read).trans (rfl)
theorem W1_main_v0 (c : Dev nD) : W1 m ρ c (Proc.devRef .tc main_v0) = GraphNet.row (F := Ideal) (m ((c : Thread nD τ).loc main_arg7)) := by
  have e : W1 m ρ c (Proc.devRef .tc main_v0) = shapeCast S1x64 (W0 m ρ c (Proc.devRef .tc main_arg7)) shapeCasts_S64_S1x64 := by
    show StableHlo.after hostOps0 (W0 m ρ c) (Proc.devRef .tc main_v0) = _
    host_read <;> rfl
  rw [e, show W0 m ρ c (Proc.devRef .tc main_arg7) = m ((c : Thread nD τ).loc main_arg7) from rfl]
  exact GraphNet.cast_eq_row _ _
theorem W1_main_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by host_read).trans (rfl)
theorem W1_main_arg8 (c : Dev nD) : W1 m ρ c (Proc.devRef .tc main_arg8) = m ((c : Thread nD τ).loc main_arg8) :=
  (show StableHlo.after hostOps0 (W0 m ρ c) (Proc.devRef .tc main_arg8) = W0 m ρ c (Proc.devRef .tc main_arg8) by host_read).trans (rfl)
theorem W1_main_arg9 (c : Dev nD) : W1 m ρ c (Proc.devRef .tc main_arg9) = m ((c : Thread nD τ).loc main_arg9) :=
  (show StableHlo.after hostOps0 (W0 m ρ c) (Proc.devRef .tc main_arg9) = W0 m ρ c (Proc.devRef .tc main_arg9) by host_read).trans (rfl)
theorem W1_main_arg10 (c : Dev nD) : W1 m ρ c (Proc.devRef .tc main_arg10) = m ((c : Thread nD τ).loc main_arg10) :=
  (show StableHlo.after hostOps0 (W0 m ρ c) (Proc.devRef .tc main_arg10) = W0 m ρ c (Proc.devRef .tc main_arg10) by host_read).trans (rfl)
theorem W1_main_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by host_read).trans (rfl)
theorem W1_main_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by host_read).trans (rfl)
theorem W1_main_arg11 (c : Dev nD) : W1 m ρ c (Proc.devRef .tc main_arg11) = m ((c : Thread nD τ).loc main_arg11) :=
  (show StableHlo.after hostOps0 (W0 m ρ c) (Proc.devRef .tc main_arg11) = W0 m ρ c (Proc.devRef .tc main_arg11) by host_read).trans (rfl)
theorem W1_main_arg12 (c : Dev nD) : W1 m ρ c (Proc.devRef .tc main_arg12) = m ((c : Thread nD τ).loc main_arg12) :=
  (show StableHlo.after hostOps0 (W0 m ρ c) (Proc.devRef .tc main_arg12) = W0 m ρ c (Proc.devRef .tc main_arg12) by host_read).trans (rfl)
theorem W1_main_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by host_read).trans (rfl)
theorem W1_main_arg13 (c : Dev nD) : W1 m ρ c (Proc.devRef .tc main_arg13) = m ((c : Thread nD τ).loc main_arg13) :=
  (show StableHlo.after hostOps0 (W0 m ρ c) (Proc.devRef .tc main_arg13) = W0 m ρ c (Proc.devRef .tc main_arg13) by host_read).trans (rfl)
theorem W1_main_arg14 (c : Dev nD) : W1 m ρ c (Proc.devRef .tc main_arg14) = m ((c : Thread nD τ).loc main_arg14) :=
  (show StableHlo.after hostOps0 (W0 m ρ c) (Proc.devRef .tc main_arg14) = W0 m ρ c (Proc.devRef .tc main_arg14) by host_read).trans (rfl)
theorem W1_main_arg15 (c : Dev nD) : W1 m ρ c (Proc.devRef .tc main_arg15) = m ((c : Thread nD τ).loc main_arg15) :=
  (show StableHlo.after hostOps0 (W0 m ρ c) (Proc.devRef .tc main_arg15) = W0 m ρ c (Proc.devRef .tc main_arg15) by host_read).trans (rfl)
theorem W1_main_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by host_read).trans (rfl)
theorem W1_main_arg16 (c : Dev nD) : W1 m ρ c (Proc.devRef .tc main_arg16) = m ((c : Thread nD τ).loc main_arg16) :=
  (show StableHlo.after hostOps0 (W0 m ρ c) (Proc.devRef .tc main_arg16) = W0 m ρ c (Proc.devRef .tc main_arg16) by host_read).trans (rfl)
theorem W1_main_arg17 (c : Dev nD) : W1 m ρ c (Proc.devRef .tc main_arg17) = m ((c : Thread nD τ).loc main_arg17) :=
  (show StableHlo.after hostOps0 (W0 m ρ c) (Proc.devRef .tc main_arg17) = W0 m ρ c (Proc.devRef .tc main_arg17) by host_read).trans (rfl)

/-! ## Boundary 2 (after region 0) -/

theorem W2_main_v1 (c : Dev nD) : W2 m ρ c (Proc.devRef .tc main_v1) = hid1 m c := by
  refine (W2_arr m ρ c 3).trans ((Lin0.array_eq (V1 m ρ) c).trans ?_)
  show LibDenseRelu.layer (W1 m ρ c (Proc.devRef .tc main_arg0)) (W1 m ρ c (Proc.devRef .tc main_arg6)) (W1 m ρ c (Proc.devRef .tc main_v0)) = _
  rw [W1_main_arg0, W1_main_arg6, W1_main_v0]
  exact (GraphNet.lin_eq_layer _ _ _).symm
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg11 (c : Dev nD) : W2 m ρ c (Proc.devRef .tc main_arg11) = m ((c : Thread nD τ).loc main_arg11) :=
  (W2_of_ne m ρ c main_arg11 (by decide)).trans (W1_main_arg11 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg13 (c : Dev nD) : W2 m ρ c (Proc.devRef .tc main_arg13) = m ((c : Thread nD τ).loc main_arg13) :=
  (W2_of_ne m ρ c main_arg13 (by decide)).trans (W1_main_arg13 m ρ c)
theorem W2_main_arg14 (c : Dev nD) : W2 m ρ c (Proc.devRef .tc main_arg14) = m ((c : Thread nD τ).loc main_arg14) :=
  (W2_of_ne m ρ c main_arg14 (by decide)).trans (W1_main_arg14 m ρ c)
theorem W2_main_arg15 (c : Dev nD) : W2 m ρ c (Proc.devRef .tc main_arg15) = m ((c : Thread nD τ).loc main_arg15) :=
  (W2_of_ne m ρ c main_arg15 (by decide)).trans (W1_main_arg15 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg16 (c : Dev nD) : W2 m ρ c (Proc.devRef .tc main_arg16) = m ((c : Thread nD τ).loc main_arg16) :=
  (W2_of_ne m ρ c main_arg16 (by decide)).trans (W1_main_arg16 m ρ c)
theorem W2_main_arg17 (c : Dev nD) : W2 m ρ c (Proc.devRef .tc main_arg17) = m ((c : Thread nD τ).loc main_arg17) :=
  (W2_of_ne m ρ c main_arg17 (by decide)).trans (W1_main_arg17 m ρ c)

/-! ## Boundary 5 -/

theorem W5_main_v1 (c : Dev nD) : W5 m ρ c (Proc.devRef .tc main_v1) = hid1 m c :=
  (show StableHlo.after hostOps1_2 (StableHlo.after hostOps1_1 (StableHlo.after hostOps1 (W2 m ρ c))) (Proc.devRef .tc main_v1) = W2 m ρ c (Proc.devRef .tc main_v1) by host_read).trans (W2_main_v1 m ρ c)
theorem W5_main_v44 (c : Dev nD) : W5 m ρ c (Proc.devRef .tc main_v44) = adj1 m c := by
  rw [mix_read1 (F := Ideal) m ρ c, W2_main_v1, W2_main_arg2]
  rfl
theorem W5_main_arg8 (c : Dev nD) : W5 m ρ c (Proc.devRef .tc main_arg8) = m ((c : Thread nD τ).loc main_arg8) :=
  (show StableHlo.after hostOps1_2 (StableHlo.after hostOps1_1 (StableHlo.after hostOps1 (W2 m ρ c))) (Proc.devRef .tc main_arg8) = W2 m ρ c (Proc.devRef .tc main_arg8) by host_read).trans (W2_main_arg8 m ρ c)
theorem W5_main_arg9 (c : Dev nD) : W5 m ρ c (Proc.devRef .tc main_arg9) = m ((c : Thread nD τ).loc main_arg9) :=
  (show StableHlo.after hostOps1_2 (StableHlo.after hostOps1_1 (StableHlo.after hostOps1 (W2 m ρ c))) (Proc.devRef .tc main_arg9) = W2 m ρ c (Proc.devRef .tc main_arg9) by host_read).trans (W2_main_arg9 m ρ c)
theorem W5_main_v45 (c : Dev nD) : W5 m ρ c (Proc.devRef .tc main_v45) = GraphNet.row (F := Ideal) (m ((c : Thread nD τ).loc main_arg10)) := by
  have e : W5 m ρ c (Proc.devRef .tc main_v45) = shapeCast S1x64 (W2 m ρ c (Proc.devRef .tc main_arg10)) shapeCasts_S64_S1x64 := by
    show StableHlo.after hostOps1_2 (StableHlo.after hostOps1_1 (StableHlo.after hostOps1 (W2 m ρ c))) (Proc.devRef .tc main_v45) = _
    host_read <;> rfl
  rw [e, W2_main_arg10]
  exact GraphNet.cast_eq_row _ _
theorem W5_main_arg4 (c : Dev nD) : W5 m ρ c (Proc.devRef .tc main_arg4) = m ((c : Thread nD τ).loc main_arg4) :=
  (show StableHlo.after hostOps1_2 (StableHlo.after hostOps1_1 (StableHlo.after hostOps1 (W2 m ρ c))) (Proc.devRef .tc main_arg4) = W2 m ρ c (Proc.devRef .tc main_arg4) by host_read).trans (W2_main_arg4 m ρ c)
theorem W5_main_arg1 (c : Dev nD) : W5 m ρ c (Proc.devRef .tc main_arg1) = m ((c : Thread nD τ).loc main_arg1) :=
  (show StableHlo.after hostOps1_2 (StableHlo.after hostOps1_1 (StableHlo.after hostOps1 (W2 m ρ c))) (Proc.devRef .tc main_arg1) = W2 m ρ c (Proc.devRef .tc main_arg1) by host_read).trans (W2_main_arg1 m ρ c)
theorem W5_main_arg11 (c : Dev nD) : W5 m ρ c (Proc.devRef .tc main_arg11) = m ((c : Thread nD τ).loc main_arg11) :=
  (show StableHlo.after hostOps1_2 (StableHlo.after hostOps1_1 (StableHlo.after hostOps1 (W2 m ρ c))) (Proc.devRef .tc main_arg11) = W2 m ρ c (Proc.devRef .tc main_arg11) by host_read).trans (W2_main_arg11 m ρ c)
theorem W5_main_arg12 (c : Dev nD) : W5 m ρ c (Proc.devRef .tc main_arg12) = m ((c : Thread nD τ).loc main_arg12) :=
  (show StableHlo.after hostOps1_2 (StableHlo.after hostOps1_1 (StableHlo.after hostOps1 (W2 m ρ c))) (Proc.devRef .tc main_arg12) = W2 m ρ c (Proc.devRef .tc main_arg12) by host_read).trans (W2_main_arg12 m ρ c)
theorem W5_main_arg3 (c : Dev nD) : W5 m ρ c (Proc.devRef .tc main_arg3) = m ((c : Thread nD τ).loc main_arg3) :=
  (show StableHlo.after hostOps1_2 (StableHlo.after hostOps1_1 (StableHlo.after hostOps1 (W2 m ρ c))) (Proc.devRef .tc main_arg3) = W2 m ρ c (Proc.devRef .tc main_arg3) by host_read).trans (W2_main_arg3 m ρ c)
theorem W5_main_arg13 (c : Dev nD) : W5 m ρ c (Proc.devRef .tc main_arg13) = m ((c : Thread nD τ).loc main_arg13) :=
  (show StableHlo.after hostOps1_2 (StableHlo.after hostOps1_1 (StableHlo.after hostOps1 (W2 m ρ c))) (Proc.devRef .tc main_arg13) = W2 m ρ c (Proc.devRef .tc main_arg13) by host_read).trans (W2_main_arg13 m ρ c)
theorem W5_main_arg14 (c : Dev nD) : W5 m ρ c (Proc.devRef .tc main_arg14) = m ((c : Thread nD τ).loc main_arg14) :=
  (show StableHlo.after hostOps1_2 (StableHlo.after hostOps1_1 (StableHlo.after hostOps1 (W2 m ρ c))) (Proc.devRef .tc main_arg14) = W2 m ρ c (Proc.devRef .tc main_arg14) by host_read).trans (W2_main_arg14 m ρ c)
theorem W5_main_arg15 (c : Dev nD) : W5 m ρ c (Proc.devRef .tc main_arg15) = m ((c : Thread nD τ).loc main_arg15) :=
  (show StableHlo.after hostOps1_2 (StableHlo.after hostOps1_1 (StableHlo.after hostOps1 (W2 m ρ c))) (Proc.devRef .tc main_arg15) = W2 m ρ c (Proc.devRef .tc main_arg15) by host_read).trans (W2_main_arg15 m ρ c)
theorem W5_main_arg5 (c : Dev nD) : W5 m ρ c (Proc.devRef .tc main_arg5) = m ((c : Thread nD τ).loc main_arg5) :=
  (show StableHlo.after hostOps1_2 (StableHlo.after hostOps1_1 (StableHlo.after hostOps1 (W2 m ρ c))) (Proc.devRef .tc main_arg5) = W2 m ρ c (Proc.devRef .tc main_arg5) by host_read).trans (W2_main_arg5 m ρ c)
theorem W5_main_arg16 (c : Dev nD) : W5 m ρ c (Proc.devRef .tc main_arg16) = m ((c : Thread nD τ).loc main_arg16) :=
  (show StableHlo.after hostOps1_2 (StableHlo.after hostOps1_1 (StableHlo.after hostOps1 (W2 m ρ c))) (Proc.devRef .tc main_arg16) = W2 m ρ c (Proc.devRef .tc main_arg16) by host_read).trans (W2_main_arg16 m ρ c)
theorem W5_main_arg17 (c : Dev nD) : W5 m ρ c (Proc.devRef .tc main_arg17) = m ((c : Thread nD τ).loc main_arg17) :=
  (show StableHlo.after hostOps1_2 (StableHlo.after hostOps1_1 (StableHlo.after hostOps1 (W2 m ρ c))) (Proc.devRef .tc main_arg17) = W2 m ρ c (Proc.devRef .tc main_arg17) by host_read).trans (W2_main_arg17 m ρ c)

/-! ## Boundary 6 (after region 1) -/

theorem W6_main_v46 (c : Dev nD) : W6 m ρ c (Proc.devRef .tc main_v46) = out1 m c := by
  refine (W6_arr m ρ c 5).trans ((Comb1.array_eq (V5 m ρ) c).trans ?_)
  show LibDenseRelu.layer2 (W5 m ρ c (Proc.devRef .tc main_v1)) (W5 m ρ c (Proc.devRef .tc main_v44)) (W5 m ρ c (Proc.devRef .tc main_arg8)) (W5 m ρ c (Proc.devRef .tc main_arg9)) (W5 m ρ c (Proc.devRef .tc main_v45)) = _
  rw [W5_main_v1, W5_main_v44, W5_main_arg8, W5_main_arg9, W5_main_v45]
  exact (GraphNet.comb_eq_layer2 _ _ _ _ _).symm
theorem W6_main_arg4 (c : Dev nD) : W6 m ρ c (Proc.devRef .tc main_arg4) = m ((c : Thread nD τ).loc main_arg4) :=
  (W6_of_ne m ρ c main_arg4 (by decide)).trans (W5_main_arg4 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W6_main_arg11 (c : Dev nD) : W6 m ρ c (Proc.devRef .tc main_arg11) = m ((c : Thread nD τ).loc main_arg11) :=
  (W6_of_ne m ρ c main_arg11 (by decide)).trans (W5_main_arg11 m ρ c)
theorem W6_main_arg12 (c : Dev nD) : W6 m ρ c (Proc.devRef .tc main_arg12) = m ((c : Thread nD τ).loc main_arg12) :=
  (W6_of_ne m ρ c main_arg12 (by decide)).trans (W5_main_arg12 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W6_main_arg13 (c : Dev nD) : W6 m ρ c (Proc.devRef .tc main_arg13) = m ((c : Thread nD τ).loc main_arg13) :=
  (W6_of_ne m ρ c main_arg13 (by decide)).trans (W5_main_arg13 m ρ c)
theorem W6_main_arg14 (c : Dev nD) : W6 m ρ c (Proc.devRef .tc main_arg14) = m ((c : Thread nD τ).loc main_arg14) :=
  (W6_of_ne m ρ c main_arg14 (by decide)).trans (W5_main_arg14 m ρ c)
theorem W6_main_arg15 (c : Dev nD) : W6 m ρ c (Proc.devRef .tc main_arg15) = m ((c : Thread nD τ).loc main_arg15) :=
  (W6_of_ne m ρ c main_arg15 (by decide)).trans (W5_main_arg15 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W6_main_arg16 (c : Dev nD) : W6 m ρ c (Proc.devRef .tc main_arg16) = m ((c : Thread nD τ).loc main_arg16) :=
  (W6_of_ne m ρ c main_arg16 (by decide)).trans (W5_main_arg16 m ρ c)
theorem W6_main_arg17 (c : Dev nD) : W6 m ρ c (Proc.devRef .tc main_arg17) = m ((c : Thread nD τ).loc main_arg17) :=
  (W6_of_ne m ρ c main_arg17 (by decide)).trans (W5_main_arg17 m ρ c)

/-! ## Boundary 7 -/

theorem W7_main_v49 (c : Dev nD) : W7 m ρ c (Proc.devRef .tc main_v49) = sum1 m c := by
  have e : W7 m ρ c (Proc.devRef .tc main_v49) = GraphNet.pool (F := Ideal) (W6 m ρ c (Proc.devRef .tc main_v46)) (W6 m ρ c (Proc.devRef .tc main_arg4)) := by
    show StableHlo.after hostOps2 (W6 m ρ c) (Proc.devRef .tc main_v49) = _
    host_read <;> (unfold GraphNet.pool; rfl)
  rw [e, W6_main_v46, W6_main_arg4]
  rfl
theorem W7_main_arg1 (c : Dev nD) : W7 m ρ c (Proc.devRef .tc main_arg1) = m ((c : Thread nD τ).loc main_arg1) :=
  (show StableHlo.after hostOps2 (W6 m ρ c) (Proc.devRef .tc main_arg1) = W6 m ρ c (Proc.devRef .tc main_arg1) by host_read).trans (W6_main_arg1 m ρ c)
theorem W7_main_arg11 (c : Dev nD) : W7 m ρ c (Proc.devRef .tc main_arg11) = m ((c : Thread nD τ).loc main_arg11) :=
  (show StableHlo.after hostOps2 (W6 m ρ c) (Proc.devRef .tc main_arg11) = W6 m ρ c (Proc.devRef .tc main_arg11) by host_read).trans (W6_main_arg11 m ρ c)
theorem W7_main_v50 (c : Dev nD) : W7 m ρ c (Proc.devRef .tc main_v50) = GraphNet.row (F := Ideal) (m ((c : Thread nD τ).loc main_arg12)) := by
  have e : W7 m ρ c (Proc.devRef .tc main_v50) = shapeCast S1x64 (W6 m ρ c (Proc.devRef .tc main_arg12)) shapeCasts_S64_S1x64 := by
    show StableHlo.after hostOps2 (W6 m ρ c) (Proc.devRef .tc main_v50) = _
    host_read <;> rfl
  rw [e, W6_main_arg12]
  exact GraphNet.cast_eq_row _ _
theorem W7_main_arg3 (c : Dev nD) : W7 m ρ c (Proc.devRef .tc main_arg3) = m ((c : Thread nD τ).loc main_arg3) :=
  (show StableHlo.after hostOps2 (W6 m ρ c) (Proc.devRef .tc main_arg3) = W6 m ρ c (Proc.devRef .tc main_arg3) by host_read).trans (W6_main_arg3 m ρ c)
theorem W7_main_arg13 (c : Dev nD) : W7 m ρ c (Proc.devRef .tc main_arg13) = m ((c : Thread nD τ).loc main_arg13) :=
  (show StableHlo.after hostOps2 (W6 m ρ c) (Proc.devRef .tc main_arg13) = W6 m ρ c (Proc.devRef .tc main_arg13) by host_read).trans (W6_main_arg13 m ρ c)
theorem W7_main_arg14 (c : Dev nD) : W7 m ρ c (Proc.devRef .tc main_arg14) = m ((c : Thread nD τ).loc main_arg14) :=
  (show StableHlo.after hostOps2 (W6 m ρ c) (Proc.devRef .tc main_arg14) = W6 m ρ c (Proc.devRef .tc main_arg14) by host_read).trans (W6_main_arg14 m ρ c)
theorem W7_main_arg15 (c : Dev nD) : W7 m ρ c (Proc.devRef .tc main_arg15) = m ((c : Thread nD τ).loc main_arg15) :=
  (show StableHlo.after hostOps2 (W6 m ρ c) (Proc.devRef .tc main_arg15) = W6 m ρ c (Proc.devRef .tc main_arg15) by host_read).trans (W6_main_arg15 m ρ c)
theorem W7_main_arg5 (c : Dev nD) : W7 m ρ c (Proc.devRef .tc main_arg5) = m ((c : Thread nD τ).loc main_arg5) :=
  (show StableHlo.after hostOps2 (W6 m ρ c) (Proc.devRef .tc main_arg5) = W6 m ρ c (Proc.devRef .tc main_arg5) by host_read).trans (W6_main_arg5 m ρ c)
theorem W7_main_arg16 (c : Dev nD) : W7 m ρ c (Proc.devRef .tc main_arg16) = m ((c : Thread nD τ).loc main_arg16) :=
  (show StableHlo.after hostOps2 (W6 m ρ c) (Proc.devRef .tc main_arg16) = W6 m ρ c (Proc.devRef .tc main_arg16) by host_read).trans (W6_main_arg16 m ρ c)
theorem W7_main_arg17 (c : Dev nD) : W7 m ρ c (Proc.devRef .tc main_arg17) = m ((c : Thread nD τ).loc main_arg17) :=
  (show StableHlo.after hostOps2 (W6 m ρ c) (Proc.devRef .tc main_arg17) = W6 m ρ c (Proc.devRef .tc main_arg17) by host_read).trans (W6_main_arg17 m ρ c)

/-! ## Boundary 8 (after region 2) -/

theorem W8_main_v49 (c : Dev nD) : W8 m ρ c (Proc.devRef .tc main_v49) = sum1 m c :=
  (W8_of_ne m ρ c main_v49 (by decide)).trans (W7_main_v49 m ρ c)
theorem W8_main_v51 (c : Dev nD) : W8 m ρ c (Proc.devRef .tc main_v51) = hid2 m c := by
  refine (W8_arr m ρ c 3).trans ((Lin2.array_eq (V7 m ρ) c).trans ?_)
  show LibDenseRelu.layer (W7 m ρ c (Proc.devRef .tc main_arg1)) (W7 m ρ c (Proc.devRef .tc main_arg11)) (W7 m ρ c (Proc.devRef .tc main_v50)) = _
  rw [W7_main_arg1, W7_main_arg11, W7_main_v50]
  exact (GraphNet.lin_eq_layer _ _ _).symm
theorem W8_main_arg3 (c : Dev nD) : W8 m ρ c (Proc.devRef .tc main_arg3) = m ((c : Thread nD τ).loc main_arg3) :=
  (W8_of_ne m ρ c main_arg3 (by decide)).trans (W7_main_arg3 m ρ c)
theorem W8_main_arg13 (c : Dev nD) : W8 m ρ c (Proc.devRef .tc main_arg13) = m ((c : Thread nD τ).loc main_arg13) :=
  (W8_of_ne m ρ c main_arg13 (by decide)).trans (W7_main_arg13 m ρ c)
theorem W8_main_arg14 (c : Dev nD) : W8 m ρ c (Proc.devRef .tc main_arg14) = m ((c : Thread nD τ).loc main_arg14) :=
  (W8_of_ne m ρ c main_arg14 (by decide)).trans (W7_main_arg14 m ρ c)
theorem W8_main_arg15 (c : Dev nD) : W8 m ρ c (Proc.devRef .tc main_arg15) = m ((c : Thread nD τ).loc main_arg15) :=
  (W8_of_ne m ρ c main_arg15 (by decide)).trans (W7_main_arg15 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W8_main_arg16 (c : Dev nD) : W8 m ρ c (Proc.devRef .tc main_arg16) = m ((c : Thread nD τ).loc main_arg16) :=
  (W8_of_ne m ρ c main_arg16 (by decide)).trans (W7_main_arg16 m ρ c)
theorem W8_main_arg17 (c : Dev nD) : W8 m ρ c (Proc.devRef .tc main_arg17) = m ((c : Thread nD τ).loc main_arg17) :=
  (W8_of_ne m ρ c main_arg17 (by decide)).trans (W7_main_arg17 m ρ c)

/-! ## Boundary 11 -/

theorem W11_main_v49 (c : Dev nD) : W11 m ρ c (Proc.devRef .tc main_v49) = sum1 m c :=
  (show StableHlo.after hostOps3_2 (StableHlo.after hostOps3_1 (StableHlo.after hostOps3 (W8 m ρ c))) (Proc.devRef .tc main_v49) = W8 m ρ c (Proc.devRef .tc main_v49) by host_read).trans (W8_main_v49 m ρ c)
theorem W11_main_v51 (c : Dev nD) : W11 m ρ c (Proc.devRef .tc main_v51) = hid2 m c :=
  (show StableHlo.after hostOps3_2 (StableHlo.after hostOps3_1 (StableHlo.after hostOps3 (W8 m ρ c))) (Proc.devRef .tc main_v51) = W8 m ρ c (Proc.devRef .tc main_v51) by host_read).trans (W8_main_v51 m ρ c)
theorem W11_main_v94 (c : Dev nD) : W11 m ρ c (Proc.devRef .tc main_v94) = adj2 m c := by
  rw [mix_read2 (F := Ideal) m ρ c, W8_main_v51, W8_main_arg3]
  rfl
theorem W11_main_arg13 (c : Dev nD) : W11 m ρ c (Proc.devRef .tc main_arg13) = m ((c : Thread nD τ).loc main_arg13) :=
  (show StableHlo.after hostOps3_2 (StableHlo.after hostOps3_1 (StableHlo.after hostOps3 (W8 m ρ c))) (Proc.devRef .tc main_arg13) = W8 m ρ c (Proc.devRef .tc main_arg13) by host_read).trans (W8_main_arg13 m ρ c)
theorem W11_main_arg14 (c : Dev nD) : W11 m ρ c (Proc.devRef .tc main_arg14) = m ((c : Thread nD τ).loc main_arg14) :=
  (show StableHlo.after hostOps3_2 (StableHlo.after hostOps3_1 (StableHlo.after hostOps3 (W8 m ρ c))) (Proc.devRef .tc main_arg14) = W8 m ρ c (Proc.devRef .tc main_arg14) by host_read).trans (W8_main_arg14 m ρ c)
theorem W11_main_v95 (c : Dev nD) : W11 m ρ c (Proc.devRef .tc main_v95) = GraphNet.row (F := Ideal) (m ((c : Thread nD τ).loc main_arg15)) := by
  have e : W11 m ρ c (Proc.devRef .tc main_v95) = shapeCast S1x64 (W8 m ρ c (Proc.devRef .tc main_arg15)) shapeCasts_S64_S1x64 := by
    show StableHlo.after hostOps3_2 (StableHlo.after hostOps3_1 (StableHlo.after hostOps3 (W8 m ρ c))) (Proc.devRef .tc main_v95) = _
    host_read <;> rfl
  rw [e, W8_main_arg15]
  exact GraphNet.cast_eq_row _ _
theorem W11_main_arg5 (c : Dev nD) : W11 m ρ c (Proc.devRef .tc main_arg5) = m ((c : Thread nD τ).loc main_arg5) :=
  (show StableHlo.after hostOps3_2 (StableHlo.after hostOps3_1 (StableHlo.after hostOps3 (W8 m ρ c))) (Proc.devRef .tc main_arg5) = W8 m ρ c (Proc.devRef .tc main_arg5) by host_read).trans (W8_main_arg5 m ρ c)
theorem W11_main_arg16 (c : Dev nD) : W11 m ρ c (Proc.devRef .tc main_arg16) = m ((c : Thread nD τ).loc main_arg16) :=
  (show StableHlo.after hostOps3_2 (StableHlo.after hostOps3_1 (StableHlo.after hostOps3 (W8 m ρ c))) (Proc.devRef .tc main_arg16) = W8 m ρ c (Proc.devRef .tc main_arg16) by host_read).trans (W8_main_arg16 m ρ c)
theorem W11_main_arg17 (c : Dev nD) : W11 m ρ c (Proc.devRef .tc main_arg17) = m ((c : Thread nD τ).loc main_arg17) :=
  (show StableHlo.after hostOps3_2 (StableHlo.after hostOps3_1 (StableHlo.after hostOps3 (W8 m ρ c))) (Proc.devRef .tc main_arg17) = W8 m ρ c (Proc.devRef .tc main_arg17) by host_read).trans (W8_main_arg17 m ρ c)

/-! ## Boundary 12 (after region 3) -/

theorem W12_main_v49 (c : Dev nD) : W12 m ρ c (Proc.devRef .tc main_v49) = sum1 m c :=
  (W12_of_ne m ρ c main_v49 (by decide)).trans (W11_main_v49 m ρ c)
theorem W12_main_v96 (c : Dev nD) : W12 m ρ c (Proc.devRef .tc main_v96) = out2 m c := by
  refine (W12_arr m ρ c 5).trans ((Comb3.array_eq (V11 m ρ) c).trans ?_)
  show LibDenseRelu.layer2 (W11 m ρ c (Proc.devRef .tc main_v51)) (W11 m ρ c (Proc.devRef .tc main_v94)) (W11 m ρ c (Proc.devRef .tc main_arg13)) (W11 m ρ c (Proc.devRef .tc main_arg14)) (W11 m ρ c (Proc.devRef .tc main_v95)) = _
  rw [W11_main_v51, W11_main_v94, W11_main_arg13, W11_main_arg14, W11_main_v95]
  exact (GraphNet.comb_eq_layer2 _ _ _ _ _).symm
theorem W12_main_arg5 (c : Dev nD) : W12 m ρ c (Proc.devRef .tc main_arg5) = m ((c : Thread nD τ).loc main_arg5) :=
  (W12_of_ne m ρ c main_arg5 (by decide)).trans (W11_main_arg5 m ρ c)
theorem W12_main_arg16 (c : Dev nD) : W12 m ρ c (Proc.devRef .tc main_arg16) = m ((c : Thread nD τ).loc main_arg16) :=
  (W12_of_ne m ρ c main_arg16 (by decide)).trans (W11_main_arg16 m ρ c)
theorem W12_main_arg17 (c : Dev nD) : W12 m ρ c (Proc.devRef .tc main_arg17) = m ((c : Thread nD τ).loc main_arg17) :=
  (W12_of_ne m ρ c main_arg17 (by decide)).trans (W11_main_arg17 m ρ c)

/-! ## Boundary 13 -/

theorem W13_main_v105 (c : Dev nD) : W13 m ρ c (Proc.devRef .tc main_v105) = result m c := by
  have e : W13 m ρ c (Proc.devRef .tc main_v105) = GraphNet.tail (F := Ideal) (W12 m ρ c (Proc.devRef .tc main_v49))
      (GraphNet.pool (F := Ideal) (W12 m ρ c (Proc.devRef .tc main_v96)) (W12 m ρ c (Proc.devRef .tc main_arg5))) (W12 m ρ c (Proc.devRef .tc main_arg16)) (W12 m ρ c (Proc.devRef .tc main_arg17)) := by
    show StableHlo.after hostOps4 (W12 m ρ c) (Proc.devRef .tc main_v105) = _
    host_read <;> (unfold GraphNet.tail GraphNet.pool; rfl)
  rw [e, W12_main_v49, W12_main_v96, W12_main_arg5, W12_main_arg16, W12_main_arg17]
  rfl

/-- The result buffer after the last segment holds the read-out of the two encoders of the argument arrays. -/
theorem result_eq_net (c : Dev nD) :
    result m c = GraphNet.tail (F := Ideal)
      (GraphNet.encoder (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)))
      (GraphNet.encoder (m ((c : Thread nD τ).loc main_arg1)) (m ((c : Thread nD τ).loc main_arg3)) (m ((c : Thread nD τ).loc main_arg5)) (m ((c : Thread nD τ).loc main_arg11)) (m ((c : Thread nD τ).loc main_arg12)) (m ((c : Thread nD τ).loc main_arg13)) (m ((c : Thread nD τ).loc main_arg14)) (m ((c : Thread nD τ).loc main_arg15)))
      (m ((c : Thread nD τ).loc main_arg16)) (m ((c : Thread nD τ).loc main_arg17)) := rfl

end Cert.KernelIdeal.Named

end
-- ==== Proof.lean ====
/-
  Two graph encoders and a linear read-out: the kernel's program against its reference.

  Each encoder is a dense layer `h = max(x · W + b, 0)` over 100000 nodes, the normalised-adjacency product `t` of `h` along
  1600000 edges, a combining layer `o = max((h · W0 + t · W1) + b, 0)`, and per-graph sums of `o`; the two pooled 128 × 64
  arrays are laid side by side, multiplied by the read-out weights and shifted by the read-out bias.
  The kernel's program computes the two layers of each encoder in kernel regions — 5000 rows per grid point, operands narrowed
  to bf16 and multiplied into a zero accumulator — and everything else with host operations; the reference computes the
  layers with the host's `dot_general`, `add` and `maximum` and everything else with THE SAME host operations.
  On the extended reals narrowing is the identity and both matrix products are the same finite sums, so each region's output
  array is the reference's layer of the same arrays, entry by entry (`LibDenseRelu`, `Lin0`/`Lin2`, `Comb1`/`Comb3`, `SpecAt`); the host
  operations around the regions are carried as they stand (`Spec`, `KernelValue`). No law of arithmetic beyond reading
  operations at an index is needed, so the precondition (finite inputs) is never opened.

    * the three frames: the generated frames of the two kernel programs; the reference's run with its result dropped;
    * `preserves`: the idealization rewrote no operation, the claim is `True`;
    * `algebraic`: the kernel's run with every buffer named ends with the result buffer at `Named.result`, which is the
      read-out of the two encoders of the arguments (`result_eq_net`), and the reference's run ends with its result at its
      composed term, which is the same read-out (`res_eq_net`), of arguments that agree.
-/
import proofs.«132506_j10075993276849_1_alg».proof.Defs
import proofs.«132506_j10075993276849_1_alg».proof.Proof.Gen.Kernel
import proofs.«132506_j10075993276849_1_alg».proof.Proof.Gen.Kernel.Frame
import proofs.«132506_j10075993276849_1_alg».proof.Proof.Gen.KernelIdeal
import proofs.«132506_j10075993276849_1_alg».proof.Proof.Gen.KernelIdeal.Frame
import proofs.«132506_j10075993276849_1_alg».proof.Proof.Gen.ReferenceIdeal
import proofs.«132506_j10075993276849_1_alg».proof.Proof.Gen.Pre_finite_inputs
import proofs.«132506_j10075993276849_1_alg».proof.Proof.ReferenceRun
import proofs.«132506_j10075993276849_1_alg».proof.Proof.Spec
import proofs.«132506_j10075993276849_1_alg».proof.Proof.KernelRun
import proofs.«132506_j10075993276849_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized program is the printed text read on the extended reals. -/
theorem preserves : Cert.preserves_Kernel_KernelIdeal := trivial

/-- Both programs end with the read-out of the two encoders of their (agreeing) arguments in the result buffer. -/
theorem algebraic : Cert.algebraic_KernelIdeal_ReferenceIdeal := by
  intro m ρ m' ρ' _ hagree
  refine ⟨fun c => Cert.KernelIdeal.Named.result m c, ?_, ?_⟩
  · exact (θ_run Cert.KernelIdeal.defs _ _).mono (fun r h c =>
      ⟨(h c Cert.KernelIdeal.main_v105 (by decide)).trans (Cert.KernelIdeal.Named.W13_main_v105 m ρ c),
       (h c Cert.KernelIdeal.main_arg0 (by decide)).trans (Cert.KernelIdeal.Gen.W13_main_arg0 m ρ c),
       (h c Cert.KernelIdeal.main_arg1 (by decide)).trans (Cert.KernelIdeal.Gen.W13_main_arg1 m ρ c),
       (h c Cert.KernelIdeal.main_arg2 (by decide)).trans (Cert.KernelIdeal.Gen.W13_main_arg2 m ρ c),
       (h c Cert.KernelIdeal.main_arg3 (by decide)).trans (Cert.KernelIdeal.Gen.W13_main_arg3 m ρ c),
       (h c Cert.KernelIdeal.main_arg4 (by decide)).trans (Cert.KernelIdeal.Gen.W13_main_arg4 m ρ c),
       (h c Cert.KernelIdeal.main_arg5 (by decide)).trans (Cert.KernelIdeal.Gen.W13_main_arg5 m ρ c),
       (h c Cert.KernelIdeal.main_arg6 (by decide)).trans (Cert.KernelIdeal.Gen.W13_main_arg6 m ρ c),
       (h c Cert.KernelIdeal.main_arg7 (by decide)).trans (Cert.KernelIdeal.Gen.W13_main_arg7 m ρ c),
       (h c Cert.KernelIdeal.main_arg8 (by decide)).trans (Cert.KernelIdeal.Gen.W13_main_arg8 m ρ c),
       (h c Cert.KernelIdeal.main_arg9 (by decide)).trans (Cert.KernelIdeal.Gen.W13_main_arg9 m ρ c),
       (h c Cert.KernelIdeal.main_arg10 (by decide)).trans (Cert.KernelIdeal.Gen.W13_main_arg10 m ρ c),
       (h c Cert.KernelIdeal.main_arg11 (by decide)).trans (Cert.KernelIdeal.Gen.W13_main_arg11 m ρ c),
       (h c Cert.KernelIdeal.main_arg12 (by decide)).trans (Cert.KernelIdeal.Gen.W13_main_arg12 m ρ c),
       (h c Cert.KernelIdeal.main_arg13 (by decide)).trans (Cert.KernelIdeal.Gen.W13_main_arg13 m ρ c),
       (h c Cert.KernelIdeal.main_arg14 (by decide)).trans (Cert.KernelIdeal.Gen.W13_main_arg14 m ρ c),
       (h c Cert.KernelIdeal.main_arg15 (by decide)).trans (Cert.KernelIdeal.Gen.W13_main_arg15 m ρ c),
       (h c Cert.KernelIdeal.main_arg16 (by decide)).trans (Cert.KernelIdeal.Gen.W13_main_arg16 m ρ c),
       (h c Cert.KernelIdeal.main_arg17 (by decide)).trans (Cert.KernelIdeal.Gen.W13_main_arg17 m ρ c)⟩)
      (Cert.KernelIdeal.Named.run_at m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12, a13, a14, a15, a16, a17⟩ := hagree c
    rw [Cert.GraphNet.res_eq_net]
    show _ = Cert.KernelIdeal.Named.result m c
    rw [Cert.KernelIdeal.Named.result_eq_net,
      a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
